-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.sign_bit.Statement Cert.KernelIdeal.S1024x64 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x32x2048x128 : Shape := ⟨4, ![1, 32, 2048, 128]⟩
abbrev S128x64 : Shape := ⟨2, ![128, 64]⟩
abbrev S_ : Shape := ⟨0, ![]⟩

class Facts : Prop where
  bcast_S_S1x32x2048x128 : S_.BroadcastsInDim S1x32x2048x128 (![] : Fin 0 → Fin S1x32x2048x128.rank)
  reducesTo_S1x32x2048x128_S_d0_1_2_3 : S1x32x2048x128.ReducesTo [0, 1, 2, 3] S_
  h_S_ : 0 < S_.numel
  bcast_S_S128x64 : S_.BroadcastsInDim S128x64 (![] : Fin 0 → Fin S128x64.rank)
  reducesTo_S128x64_S_d0_1 : S128x64.ReducesTo [0, 1] S_

variable [Facts]

def fn_part1 {F : FTy → Type} [FloatOps F] (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  main_v18

def fn {F : FTy → Type} [FloatOps F] (main_arg0 : FVec F S1x32x2048x128 .f32) (main_arg1 : FVec F S1x32x2048x128 .f32) (main_arg2 : FVec F S1x32x2048x128 .f32) (main_arg3 : FVec F S128x64 .f32) : IVec S_ 1 :=
  let main_v0 : FVec F S1x32x2048x128 .f32 := Host.absf main_arg0
  let main_cst : FVec F S_ .f32 := constant S_ .f32 0x7F800000#32
  let main_v1 : FVec F S1x32x2048x128 .f32 := broadcastInDim S1x32x2048x128 ![] bcast_S_S1x32x2048x128 main_cst
  let main_v2 : IVec S1x32x2048x128 1 := cmpf .olt main_v0 main_v1
  let main_c : IVec S_ 1 := constantI S_ 1 1#1
  let main_v3 : IVec S_ 1 := (fun x v => Host.reduce IntOp.andi x v reducesTo_S1x32x2048x128_S_d0_1_2_3 h_S_) main_v2 main_c
  let main_v4 : FVec F S1x32x2048x128 .f32 := Host.absf main_arg1
  let main_cst_0 : FVec F S_ .f32 := constant S_ .f32 0x7F800000#32
  let main_v5 : FVec F S1x32x2048x128 .f32 := broadcastInDim S1x32x2048x128 ![] bcast_S_S1x32x2048x128 main_cst_0
  let main_v6 : IVec S1x32x2048x128 1 := cmpf .olt main_v4 main_v5
  let main_c_1 : IVec S_ 1 := constantI S_ 1 1#1
  let main_v7 : IVec S_ 1 := (fun x v => Host.reduce IntOp.andi x v reducesTo_S1x32x2048x128_S_d0_1_2_3 h_S_) main_v6 main_c_1
  let main_v8 : IVec S_ 1 := andi main_v3 main_v7
  let main_v9 : FVec F S1x32x2048x128 .f32 := Host.absf main_arg2
  let main_cst_2 : FVec F S_ .f32 := constant S_ .f32 0x7F800000#32
  let main_v10 : FVec F S1x32x2048x128 .f32 := broadcastInDim S1x32x2048x128 ![] bcast_S_S1x32x2048x128 main_cst_2
  let main_v11 : IVec S1x32x2048x128 1 := cmpf .olt main_v9 main_v10
  let main_c_3 : IVec S_ 1 := constantI S_ 1 1#1
  let main_v12 : IVec S_ 1 := (fun x v => Host.reduce IntOp.andi x v reducesTo_S1x32x2048x128_S_d0_1_2_3 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_v13 main_v16
-- ==== Kernel.lean ====
abbrev S1x32x2048x128 : Shape := ⟨4, ![1, 32, 2048, 128]⟩
abbrev S128x64 : Shape := ⟨2, ![128, 64]⟩
abbrev S32x2048x128 : Shape := ⟨3, ![32, 2048, 128]⟩
abbrev S32x2048x2048 : Shape := ⟨3, ![32, 2048, 2048]⟩
abbrev S1x1024x128 : Shape := ⟨3, ![1, 1024, 128]⟩
abbrev S1x1024x1024 : Shape := ⟨3, ![1, 1024, 1024]⟩
abbrev S1024x64 : Shape := ⟨2, ![1024, 64]⟩
abbrev S1024x128 : Shape := ⟨2, ![1024, 128]⟩
abbrev S128x1024 : Shape := ⟨2, ![128, 1024]⟩
abbrev S1024x1024 : Shape := ⟨2, ![1024, 1024]⟩
abbrev S64x1024 : Shape := ⟨2, ![64, 1024]⟩
abbrev S1x32x2048x2048 : Shape := ⟨4, ![1, 32, 2048, 2048]⟩

abbrev nBuf : Space → Nat
  | .hbm => 9
  | .vmem => 10
  | .smem => 0
  | _ => 0

abbrev bufTy : (tb : Table) → Fin (tcTables nBuf tb) → BufTy
  | .hbm, ⟨0, _⟩ => ⟨S1x32x2048x128, .f32⟩
  | .hbm, ⟨1, _⟩ => ⟨S1x32x2048x128, .f32⟩
  | .hbm, ⟨2, _⟩ => ⟨S1x32x2048x128, .f32⟩
  | .hbm, ⟨3, _⟩ => ⟨S128x64, .f32⟩
  | .hbm, ⟨4, _⟩ => ⟨S32x2048x128, .f32⟩
  | .hbm, ⟨5, _⟩ => ⟨S32x2048x128, .f32⟩
  | .hbm, ⟨6, _⟩ => ⟨S32x2048x128, .f32⟩
  | .hbm, ⟨7, _⟩ => ⟨S32x2048x2048, .f32⟩
  | .hbm, ⟨8, _⟩ => ⟨S1x32x2048x2048, .f32⟩
  | .local _ .vmem, ⟨0, _⟩ => ⟨S1x1024x128, .f32⟩
  | .local _ .vmem, ⟨1, _⟩ => ⟨S1x1024x128, .f32⟩
  | .local _ .vmem, ⟨2, _⟩ => ⟨S1x1024x128, .f32⟩
  | .local _ .vmem, ⟨3, _⟩ => ⟨S1x1024x128, .f32⟩
  | .local _ .vmem, ⟨4, _⟩ => ⟨S1x1024x128, .f32⟩
  | .local _ .vmem, ⟨5, _⟩ => ⟨S1x1024x128, .f32⟩
  | .local _ .vmem, ⟨6, _⟩ => ⟨S128x64, .f32⟩
  | .local _ .vmem, ⟨7, _⟩ => ⟨S1x1024x1024, .f32⟩
  | .local _ .vmem, ⟨8, _⟩ => ⟨S1x1024x1024, .f32⟩
  | .local _ .vmem, ⟨9, _⟩ => ⟨S1024x64, .bf16⟩
  | _, _ => ⟨S1x32x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [BitOps F]

abbrev grid0 : Pipeline.Grid := ⟨3, ![32, 2, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

class Facts₀ : Prop where
  shapeCasts_S1x32x2048x128_S32x2048x128 : S1x32x2048x128.ShapeCasts S32x2048x128
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  inb_S128x64_S128x64_0_0 : ∀ a, (![0, 0] : Fin 2 → Nat) a + S128x64.size a ≤ S128x64.size a
  h_S128x64 : 0 < S128x64.numel
  bitsLt_bf16_f32 : FTy.bits .bf16 < FTy.bits .f32
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  packedbf16_S1024x64_S1024x64_0_0 : (Rect.unit (s := S1024x64) ![0, 0] S1024x64.size inb_S1024x64_S1024x64_0_0).PackedRows (EltTy.packing .bf16)
  transposes_S1024x128_p1_0_S128x1024 : S1024x128.Transposes [1, 0] S128x1024
  transposes_S1024x64_p1_0_S64x1024 : S1024x64.Transposes [1, 0] S64x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  shapeCasts_S32x2048x2048_S1x32x2048x2048 : S32x2048x2048.ShapeCasts S1x32x2048x2048
  dot_S1024x128_S128x64_S1024x64_1_0_0_1_n_n_wf : DotDims.WF S1024x128 S128x64 S1024x64 [1] [0] [0] [1] [] []
  dot_S1024x128_S128x1024_S1024x1024_1_0_0_1_n_n_wf : DotDims.WF S1024x128 S128x1024 S1024x1024 [1] [0] [0] [1] [] []
  dot_S1024x64_S64x1024_S1024x1024_1_0_0_1_n_n_wf : DotDims.WF S1024x64 S64x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x128.size a ≤ S32x2048x128.size a
  hwx0_0 : ∀ i : grid0.Coords, EltTy.bits .f32 = 32 ∨ (Rect.block (s := S32x2048x128) S1x1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x128.size a ≤ S32x2048x128.size a
  hwx0_1 : ∀ i : grid0.Coords, EltTy.bits .f32 = 32 ∨ (Rect.block (s := S32x2048x128) S1x1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x128.size a ≤ S32x2048x128.size a
  hwx0_2 : ∀ i : grid0.Coords, EltTy.bits .f32 = 32 ∨ (Rect.block (s := S32x2048x128) S1x1024x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x1024.size a ≤ S32x2048x2048.size a
  hwx0_4 : ∀ i : grid0.Coords, EltTy.bits .f32 = 32 ∨ (Rect.block (s := S32x2048x2048) S1x1024x1024.size (cc0_transform_4 i) (hinb0_4 i)).WholeWords (EltTy.packing .f32)

variable [Facts₀]

def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf
def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf
def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf

abbrev win0_0 : Pipeline.Window sig grid0 :=
  Pipeline.Window.ofSpec (Memref.whole main_v0) S1x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1x32x2048x128 : Shape := ⟨4, ![1, 32, 2048, 128]⟩
abbrev S128x64 : Shape := ⟨2, ![128, 64]⟩
abbrev S1x32x2048x64 : Shape := ⟨4, ![1, 32, 2048, 64]⟩
abbrev S1x32x2048x2048 : Shape := ⟨4, ![1, 32, 2048, 2048]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S1x32x2048x128, .f32⟩
  | .hbm, ⟨1, _⟩ => ⟨S1x32x2048x128, .f32⟩
  | .hbm, ⟨2, _⟩ => ⟨S1x32x2048x128, .f32⟩
  | .hbm, ⟨3, _⟩ => ⟨S128x64, .f32⟩
  | .hbm, ⟨4, _⟩ => ⟨S1x32x2048x128, .f32⟩
  | .hbm, ⟨5, _⟩ => ⟨S1x32x2048x64, .f32⟩
  | .hbm, ⟨6, _⟩ => ⟨S1x32x2048x64, .f32⟩
  | .hbm, ⟨7, _⟩ => ⟨S1x32x2048x2048, .f32⟩
  | .hbm, ⟨8, _⟩ => ⟨S1x32x2048x64, .f32⟩
  | .hbm, ⟨9, _⟩ => ⟨S_, .f32⟩
  | .hbm, ⟨10, _⟩ => ⟨S1x32x2048x64, .f32⟩
  | .hbm, ⟨11, _⟩ => ⟨S1x32x2048x64, .f32⟩
  | .hbm, ⟨12, _⟩ => ⟨S1x32x2048x2048, .f32⟩
  | .hbm, ⟨13, _⟩ => ⟨S_, .f32⟩
  | .hbm, ⟨14, _⟩ => ⟨S1x32x2048x2048, .f32⟩
  | .hbm, ⟨15, _⟩ => ⟨S1x32x2048x2048, .f32⟩
  | .hbm, ⟨16, _⟩ => ⟨S1x32x2048x2048, .f32⟩
  | _, _ => ⟨S1x32x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]

class Facts₀ : Prop where
  bcast_S_S1x32x2048x64 : S_.BroadcastsInDim S1x32x2048x64 (![] : Fin 0 → Fin S1x32x2048x64.rank)
  bcast_S_S1x32x2048x2048 : S_.BroadcastsInDim S1x32x2048x2048 (![] : Fin 0 → Fin S1x32x2048x2048.rank)
  dot_S1x32x2048x128_S128x64_S1x32x2048x64_3_0_012_1_n_n_wf : DotDims.WF S1x32x2048x128 S128x64 S1x32x2048x64 [3] [0] [0, 1, 2] [1] [] []
  dot_S1x32x2048x128_S1x32x2048x128_S1x32x2048x2048_3_3_2_2_01_01_wf : DotDims.WF S1x32x2048x128 S1x32x2048x128 S1x32x2048x2048 [3] [3] [2] [2] [0, 1] [0, 1]
  dot_S1x32x2048x64_S1x32x2048x64_S1x32x2048x2048_3_3_2_2_01_01_wf : DotDims.WF S1x32x2048x64 S1x32x2048x64 S1x32x2048x2048 [3] [3] [2] [2] [0, 1] [0, 1]

variable [Facts₀]

def dot_S1x32x2048x128_S128x64_S1x32x2048x64_3_0_012_1_n_n : DotDims S1x32x2048x128 S128x64 S1x32x2048x64 where
  lhsContracting := [3]
  rhsContracting := [0]
  lhsNonContracting := [0, 1, 2]
  rhsNonContracting := [1]
  lhsBatch := []
  rhsBatch := []
  wf := dot_S1x32x2048x128_S128x64_S1x32x2048x64_3_0_012_1_n_n_wf
def dot_S1x32x2048x128_S1x32x2048x128_S1x32x2048x2048_3_3_2_2_01_01 : DotDims S1x32x2048x128 S1x32x2048x128 S1x32x2048x2048 where
  lhsContracting := [3]
  rhsContracting := [3]
  lhsNonContracting := [2]
  rhsNonContracting := [2]
  lhsBatch := [0, 1]
  rhsBatch := [0, 1]
  wf := dot_S1x32x2048x128_S1x32x2048x128_S1x32x2048x2048_3_3_2_2_01_01_wf
def dot_S1x32x2048x64_S1x32x2048x64_S1x32x2048x2048_3_3_2_2_01_01 : DotDims S1x32x2048x64 S1x32x2048x64 S1x32x2048x2048 where
  lhsContracting := [3]
  rhsContracting := [3]
  lhsNonContracting := [2]
  rhsNonContracting := [2]
  lhsBatch := [0, 1]
  rhsBatch := [0, 1]
  wf := dot_S1x32x2048x64_S1x32x2048x64_S1x32x2048x2048_3_3_2_2_01_01_wf

class Facts : Prop extends Facts₀ where

variable [Facts]
-- ==== Proof.Spec.lean ====
/-
  The scores both programs compute, as ONE function of the four argument arrays over the extended reals.

  For a batch `b`, a head `h`, a query row `n` and a key row `t`, with `q` the queries, `ko` the original keys,
  `kq` the quantized keys (all of shape [1, 32, 2048, 128]) and `g` the projection matrix [128, 64]:

      raw      = Σ_d q[b,h,n,d] · kq[b,h,t,d]                         the uncorrected score
      proj r   = Σ_d q[b,h,n,d] · g[d,r]                              the query row projected on column r
      sgn r    = sign (Σ_d (ko[b,h,t,d] − kq[b,h,t,d]) · g[d,r])      the sign of the key row's projected residual

  The kernel scales the projection ONCE, by 1/64, before contracting over the 64 columns:

      score    = raw + Σ_r (proj r · (1/64)) · sgn r

  and the reference divides the projection by 8 and multiplies the contracted sum by 1/8:

      scoreRef = raw + (Σ_r (proj r / 8) · sgn r) · (1/8).

  The three scalars are kept as the float words the programs spell (1/64 = 0x3C800000, 8 = 0x41000000,
  1/8 = 0x3E000000): all three are exact dyadic rationals.
-/
import Idealize.ShloMosaic.PureOps.Ideal
import Idealize.ShloMosaic.Lib.ValueIdx

noncomputable section

namespace Cert.Spec

open Idealize.ShloMosaic Idealize.ShloMosaic.ValueIdx

/-- The shape of the queries and of both key arrays. -/
abbrev SX : Shape := ⟨4, ![1, 32, 2048, 128]⟩
/-- The shape of the projection matrix. -/
abbrev SG : Shape := ⟨2, ![128, 64]⟩
/-- The shape of the scores. -/
abbrev SO : Shape := ⟨4, ![1, 32, 2048, 2048]⟩

/-- The uncorrected score of query row `n` against quantized key row `t`. -/
def raw (q kq : SX.Idx → EReal) (b : Fin 1) (h : Fin 32) (n t : Fin 2048) : EReal :=
  ∑ d : Fin 128, q (ix4 b h n d) * kq (ix4 b h t d)

/-- Query row `n` projected on column `r` of the projection matrix. -/
def proj (q : SX.Idx → EReal) (g : SG.Idx → EReal) (b : Fin 1) (h : Fin 32) (n : Fin 2048) (r : Fin 64) : EReal :=
  ∑ d : Fin 128, q (ix4 b h n d) * g (ix2 d r)

/-- The sign of key row `t`'s residual (original minus quantized) projected on column `r`. -/
def sgn (ko kq : SX.Idx → EReal) (g : SG.Idx → EReal) (b : Fin 1) (h : Fin 32) (t : Fin 2048) (r : Fin 64) : EReal :=
  Ideal.sign (∑ d : Fin 128, (ko (ix4 b h t d) - kq (ix4 b h t d)) * g (ix2 d r))

/-- The corrected score in the kernel's arrangement: the projection scaled by 1/64, then contracted with the signs. -/
def score4 (q ko kq : SX.Idx → EReal) (g : SG.Idx → EReal) (b : Fin 1) (h : Fin 32) (n t : Fin 2048) : EReal :=
  raw q kq b h n t
    + ∑ r : Fin 64, (proj q g b h n r * Ideal.ofBits .f32 0x3C800000#32) * sgn ko kq g b h t r

/-- The corrected score in the reference's arrangement: the projection divided by 8, contracted with the signs, the
    sum multiplied by 1/8. -/
def scoreRef4 (q ko kq : SX.Idx → EReal) (g : SG.Idx → EReal) (b : Fin 1) (h : Fin 32) (n t : Fin 2048) : EReal :=
  raw q kq b h n t
    + (∑ r : Fin 64, Ideal.div (proj q g b h n r) (Ideal.ofBits .f32 0x41000000#32) * sgn ko kq g b h t r)
        * Ideal.ofBits .f32 0x3E000000#32

/-- The kernel's arrangement as a whole array of scores. -/
def score (q ko kq : SX.Idx → EReal) (g : SG.Idx → EReal) : SO.Idx → EReal := fun i =>
  score4 q ko kq g ⟨(i 0).val, (i 0).isLt⟩ ⟨(i 1).val, (i 1).isLt⟩ ⟨(i 2).val, (i 2).isLt⟩ ⟨(i 3).val, (i 3).isLt⟩

/-- The reference's arrangement as a whole array of scores. -/
def scoreRef (q ko kq : SX.Idx → EReal) (g : SG.Idx → EReal) : SO.Idx → EReal := fun i =>
  scoreRef4 q ko kq g ⟨(i 0).val, (i 0).isLt⟩ ⟨(i 1).val, (i 1).isLt⟩ ⟨(i 2).val, (i 2).isLt⟩ ⟨(i 3).val, (i 3).isLt⟩

end Cert.Spec

end
-- ==== Proof.Pieces.lean ====
/-
  What one grid point leaves behind, as values.

  The body at a grid point reads a block of queries `x0`, a block of quantized keys `x1`, a block of original keys
  `x2` and the projection matrix `x3`. At a point where the innermost grid coordinate is zero it first fills the carried
  buffer with the sign block  S(x2, x1, x3)  (the sign of the projected residual of the key block) and then reads that
  buffer back; at the other points it reads what the previous point left there. In both cases it then stores ONE block
  of scores,  O(x0, x1, x3, s),  computed from the query block, the quantized key block, the matrix and the sign block `s`.
  Here `S` and `O` are the body's two pure payload terms. The three statements below say exactly this of the contents
  the run leaves: each store covers its whole buffer, so the buffer's contents after the point are the stored payload,
  and every load reads a whole buffer, so the payload's operands are the blocks themselves.
-/
import proofs.«119321_j19490561589515_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.ShloMosaic.Tactic Idealize.SL.Sem
open Idealize.ShloMosaic.Pipeline (Dat)

namespace Cert.KernelIdeal.KV

open Cert.KernelIdeal Cert.KernelIdeal.Gen

variable {F : FTy → Type} [FloatOps F]

/-- The origin of a rank-2 buffer, as the constant-zero offset. -/
theorem hz2 : (![0, 0] : Fin 2 → Nat) = fun _ => 0 := funext fun a => by fin_cases a <;> rfl
/-- The origin of a rank-3 buffer, as the constant-zero offset. -/
theorem hz3 : (![0, 0, 0] : Fin 3 → Nat) = fun _ => 0 := funext fun a => by fin_cases a <;> rfl

/-- At a point whose innermost coordinate is zero the carried buffer ends at the sign block of the point's key blocks. -/
theorem scratch_A (c : Dev nD) (i : grid0.Coords) (arg3 : Memref sig .tc .vmem S1x1024x128 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S128x64 .f32) (harg6 : arg6.IsWhole) (arg7 : Memref sig .tc .vmem S1x1024x1024 .f32) (harg7 : arg7.IsWhole) (arg8 : Memref sig .tc .vmem S1024x64 .bf16) (harg8 : arg8.IsWhole) (hc0 : cond0_0 i) (x0 : Vec F S1x1024x128 .f32) (x1 : Vec F S1x1024x128 .f32) (x2 : Vec F S1x1024x128 .f32) (x3 : Vec F S128x64 .f32) :
    sout0_A_0 c i arg3 harg3 arg4 harg4 arg5 harg5 arg6 harg6 arg7 harg7 arg8 harg8 hc0 x0 x1 x2 x3 = k0_pay1 x2 x1 x3 := by
  unfold sout0_A_0
  rw [View.read_writes_eq_canon _ _ _ (scover0_A_0 c i arg3 harg3 arg4 harg4 arg5 harg5 arg6 harg6 arg7 harg7 arg8 harg8 hc0 x0 x1 x2 x3)]
  unfold kernelRun0_A
  dsimp only
  sl_unfold_words
  rw [View.canon_unit_zero hz2]
  simp only [View.readAt_eq_ld, harg4.read_unread, harg5.read_unread, harg6.read_unread,
    View.ld_unit_zero (S := S1x1024x128) hz3, View.ld_unit_zero (S := S128x64) hz2]

/-- At such a point the score block is computed with that freshly stored sign block (the body reads it back whole). -/
theorem out_A (c : Dev nD) (i : grid0.Coords) (arg3 : Memref sig .tc .vmem S1x1024x128 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S128x64 .f32) (harg6 : arg6.IsWhole) (arg7 : Memref sig .tc .vmem S1x1024x1024 .f32) (harg7 : arg7.IsWhole) (arg8 : Memref sig .tc .vmem S1024x64 .bf16) (harg8 : arg8.IsWhole) (hc0 : cond0_0 i) (x0 : Vec F S1x1024x128 .f32) (x1 : Vec F S1x1024x128 .f32) (x2 : Vec F S1x1024x128 .f32) (x3 : Vec F S128x64 .f32) :
    out0_A_4 c i arg3 harg3 arg4 harg4 arg5 harg5 arg6 harg6 arg7 harg7 arg8 harg8 hc0 x0 x1 x2 x3 = k0_pay2 x0 x1 x3 (k0_pay1 x2 x1 x3) := by
  unfold out0_A_4
  rw [View.read_writes_eq_canon _ _ _ (cover0_A_4 c i arg3 harg3 arg4 harg4 arg5 harg5 arg6 harg6 arg7 harg7 arg8 harg8 hc0 x0 x1 x2 x3)]
  unfold kernelRun0_A
  dsimp only
  sl_unfold_words
  rw [View.canon_unit_zero hz3]
  simp only [View.readAt_eq_ld, harg3.read_unread, harg4.read_unread, harg5.read_unread, harg6.read_unread,
    View.ld_unit_zero (S := S1x1024x128) hz3, View.ld_unit_zero (S := S128x64) hz2,
    View.readCov_unit_zero (S := S1024x64) _ hz2]

/-- At the other points the score block is computed with whatever sign block \`xs0\` the carried buffer held on entry. -/
theorem out_B (c : Dev nD) (i : grid0.Coords) (arg3 : Memref sig .tc .vmem S1x1024x128 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S128x64 .f32) (harg6 : arg6.IsWhole) (arg7 : Memref sig .tc .vmem S1x1024x1024 .f32) (harg7 : arg7.IsWhole) (arg8 : Memref sig .tc .vmem S1024x64 .bf16) (harg8 : arg8.IsWhole) (hc0 : ¬cond0_0 i) (x0 : Vec F S1x1024x128 .f32) (x1 : Vec F S1x1024x128 .f32) (x2 : Vec F S1x1024x128 .f32) (x3 : Vec F S128x64 .f32) (xs0 : Vec F S1024x64 .bf16) :
    out0_B_4 c i arg3 harg3 arg4 harg4 arg5 harg5 arg6 harg6 arg7 harg7 arg8 harg8 hc0 x0 x1 x2 x3 xs0 = k0_pay2 x0 x1 x3 xs0 := by
  unfold out0_B_4
  rw [View.read_writes_eq_canon _ _ _ (cover0_B_4 c i arg3 harg3 arg4 harg4 arg5 harg5 arg6 harg6 arg7 harg7 arg8 harg8 hc0 x0 x1 x2 x3 xs0)]
  unfold kernelRun0_B
  dsimp only
  rw [View.canon_unit_zero hz3]
  simp only [View.readAt_eq_ld, harg3.read_unread, harg4.read_unread, harg6.read_unread, harg8.read_unread,
    View.ld_unit_zero (S := S1x1024x128) hz3, View.ld_unit_zero (S := S128x64) hz2, View.ld_unit_zero (S := S1024x64) hz2]

end Cert.KernelIdeal.KV

end
-- ==== Proof.Payload.lean ====
/-
  The body's two payloads read at an index, over the extended reals.

  With a query block `q`, a quantized key block `kq`, an original key block `ko` (each [1, 1024, 128]), the projection
  matrix `g` [128, 64] and a sign block `s` [1024, 64]:

    * the sign payload at (row r, column j) is  sign (Σ_d (ko[0,r,d] − kq[0,r,d]) · g[d,j]);
    * the score payload at (0, n, t) is  Σ_d q[0,n,d] · kq[0,t,d]  +  Σ_r ((Σ_d q[0,n,d] · g[d,r]) · (1/64)) · s[t,r].

  Over the extended reals a change of float format is the identity and a matrix product into a zero accumulator is
  the plain sum of products over the contracted axis; a transposed operand is read at the swapped index, and a block
  viewed without (or with) its leading unit axis is read at the same coordinates. The body spells the sign as
  "if |x| > 0 then (if x < 0 then −1 else 1) else x"; on every extended real that is the sign function (`signSel_eq`).
-/
import proofs.«119321_j19490561589515_2_alg».proof.Proof.Gen.KernelIdeal.Skeleton
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.KV

open Cert.KernelIdeal Cert.KernelIdeal.Gen

/-! ## The three matrix products at an index -/

/-! For each of the body's three products: the left operand's row coordinate and the right operand's column coordinate
    are the result's, and the contracted coordinate is the summation index. -/

theorem mm_proj_l0 (j : S1024x64.Idx) (q : dot_S1024x128_S128x64_S1024x64_1_0_0_1_n_n.contr.Idx) : (dot_S1024x128_S128x64_S1024x64_1_0_0_1_n_n.lhsIdx j q 0).val = (j 0).val := by
  unfold DotDims.lhsIdx
  rw [dif_neg (show ¬(0 : Fin S1024x128.rank) ∈ dot_S1024x128_S128x64_S1024x64_1_0_0_1_n_n.lhsBatch by decide), dif_pos (show (0 : Fin S1024x128.rank) ∈ dot_S1024x128_S128x64_S1024x64_1_0_0_1_n_n.lhsNonContracting by decide)]
  rfl
theorem mm_proj_r1 (j : S1024x64.Idx) (q : dot_S1024x128_S128x64_S1024x64_1_0_0_1_n_n.contr.Idx) : (dot_S1024x128_S128x64_S1024x64_1_0_0_1_n_n.rhsIdx j q 1).val = (j 1).val := by
  unfold DotDims.rhsIdx
  rw [dif_neg (show ¬(1 : Fin S128x64.rank) ∈ dot_S1024x128_S128x64_S1024x64_1_0_0_1_n_n.rhsBatch by decide), dif_pos (show (1 : Fin S128x64.rank) ∈ dot_S1024x128_S128x64_S1024x64_1_0_0_1_n_n.rhsNonContracting by decide)]
  rfl
/-- A [1024,128] by [128,64] product into the zero accumulator, at (n, t): the sum over the 128 contracted coordinates. -/
theorem mm_proj {φ₁ φ₂ : FTy} (prec : Option ContractPrecision) (a : FVec Ideal S1024x128 φ₁) (b : FVec Ideal S128x64 φ₂)
    (n : Fin 1024) (t : Fin 64) :
    FloatOps.matmul dot_S1024x128_S128x64_S1024x64_1_0_0_1_n_n prec a b (constant S1024x64 .f32 0x00000000#32) (ix2 n t)
      = ∑ k : Fin 128, a (ix2 n k) * b (ix2 k t) := by
  rw [Ideal.matmul_constant_zero_apply, ← Equiv.sum_comp (ValueIdx.contrEquiv1 dot_S1024x128_S128x64_S1024x64_1_0_0_1_n_n 128 rfl rfl).symm]
  refine Finset.sum_congr rfl fun k _ => ?_
  have hk := ValueIdx.contrEquiv1_symm_val dot_S1024x128_S128x64_S1024x64_1_0_0_1_n_n 128 rfl rfl k
  have el : dot_S1024x128_S128x64_S1024x64_1_0_0_1_n_n.lhsIdx (ix2 n t) ((ValueIdx.contrEquiv1 dot_S1024x128_S128x64_S1024x64_1_0_0_1_n_n 128 rfl rfl).symm k) = ix2 n k := funext fun x => Fin.ext (by
    match x with
    | ⟨0, _⟩ => exact mm_proj_l0 _ _
    | ⟨1, _⟩ => exact (dot_S1024x128_S128x64_S1024x64_1_0_0_1_n_n.lhsIdx_val_of_single rfl _ _).trans hk)
  have er : dot_S1024x128_S128x64_S1024x64_1_0_0_1_n_n.rhsIdx (ix2 n t) ((ValueIdx.contrEquiv1 dot_S1024x128_S128x64_S1024x64_1_0_0_1_n_n 128 rfl rfl).symm k) = ix2 k t := funext fun x => Fin.ext (by
    match x with
    | ⟨0, _⟩ => exact (dot_S1024x128_S128x64_S1024x64_1_0_0_1_n_n.rhsIdx_val_of_single rfl _ _).trans hk
    | ⟨1, _⟩ => exact mm_proj_r1 _ _)
  rw [el, er]

theorem mm_raw_l0 (j : S1024x1024.Idx) (q : dot_S1024x128_S128x1024_S1024x1024_1_0_0_1_n_n.contr.Idx) : (dot_S1024x128_S128x1024_S1024x1024_1_0_0_1_n_n.lhsIdx j q 0).val = (j 0).val := by
  unfold DotDims.lhsIdx
  rw [dif_neg (show ¬(0 : Fin S1024x128.rank) ∈ dot_S1024x128_S128x1024_S1024x1024_1_0_0_1_n_n.lhsBatch by decide), dif_pos (show (0 : Fin S1024x128.rank) ∈ dot_S1024x128_S128x1024_S1024x1024_1_0_0_1_n_n.lhsNonContracting by decide)]
  rfl
theorem mm_raw_r1 (j : S1024x1024.Idx) (q : dot_S1024x128_S128x1024_S1024x1024_1_0_0_1_n_n.contr.Idx) : (dot_S1024x128_S128x1024_S1024x1024_1_0_0_1_n_n.rhsIdx j q 1).val = (j 1).val := by
  unfold DotDims.rhsIdx
  rw [dif_neg (show ¬(1 : Fin S128x1024.rank) ∈ dot_S1024x128_S128x1024_S1024x1024_1_0_0_1_n_n.rhsBatch by decide), dif_pos (show (1 : Fin S128x1024.rank) ∈ dot_S1024x128_S128x1024_S1024x1024_1_0_0_1_n_n.rhsNonContracting by decide)]
  rfl
/-- A [1024,128] by [128,1024] product into the zero accumulator, at (n, t). -/
theorem mm_raw {φ₁ φ₂ : FTy} (prec : Option ContractPrecision) (a : FVec Ideal S1024x128 φ₁) (b : FVec Ideal S128x1024 φ₂)
    (n : Fin 1024) (t : Fin 1024) :
    FloatOps.matmul dot_S1024x128_S128x1024_S1024x1024_1_0_0_1_n_n prec a b (constant S1024x1024 .f32 0x00000000#32) (ix2 n t)
      = ∑ k : Fin 128, a (ix2 n k) * b (ix2 k t) := by
  rw [Ideal.matmul_constant_zero_apply, ← Equiv.sum_comp (ValueIdx.contrEquiv1 dot_S1024x128_S128x1024_S1024x1024_1_0_0_1_n_n 128 rfl rfl).symm]
  refine Finset.sum_congr rfl fun k _ => ?_
  have hk := ValueIdx.contrEquiv1_symm_val dot_S1024x128_S128x1024_S1024x1024_1_0_0_1_n_n 128 rfl rfl k
  have el : dot_S1024x128_S128x1024_S1024x1024_1_0_0_1_n_n.lhsIdx (ix2 n t) ((ValueIdx.contrEquiv1 dot_S1024x128_S128x1024_S1024x1024_1_0_0_1_n_n 128 rfl rfl).symm k) = ix2 n k := funext fun x => Fin.ext (by
    match x with
    | ⟨0, _⟩ => exact mm_raw_l0 _ _
    | ⟨1, _⟩ => exact (dot_S1024x128_S128x1024_S1024x1024_1_0_0_1_n_n.lhsIdx_val_of_single rfl _ _).trans hk)
  have er : dot_S1024x128_S128x1024_S1024x1024_1_0_0_1_n_n.rhsIdx (ix2 n t) ((ValueIdx.contrEquiv1 dot_S1024x128_S128x1024_S1024x1024_1_0_0_1_n_n 128 rfl rfl).symm k) = ix2 k t := funext fun x => Fin.ext (by
    match x with
    | ⟨0, _⟩ => exact (dot_S1024x128_S128x1024_S1024x1024_1_0_0_1_n_n.rhsIdx_val_of_single rfl _ _).trans hk
    | ⟨1, _⟩ => exact mm_raw_r1 _ _)
  rw [el, er]

theorem mm_corr_l0 (j : S1024x1024.Idx) (q : dot_S1024x64_S64x1024_S1024x1024_1_0_0_1_n_n.contr.Idx) : (dot_S1024x64_S64x1024_S1024x1024_1_0_0_1_n_n.lhsIdx j q 0).val = (j 0).val := by
  unfold DotDims.lhsIdx
  rw [dif_neg (show ¬(0 : Fin S1024x64.rank) ∈ dot_S1024x64_S64x1024_S1024x1024_1_0_0_1_n_n.lhsBatch by decide), dif_pos (show (0 : Fin S1024x64.rank) ∈ dot_S1024x64_S64x1024_S1024x1024_1_0_0_1_n_n.lhsNonContracting by decide)]
  rfl
theorem mm_corr_r1 (j : S1024x1024.Idx) (q : dot_S1024x64_S64x1024_S1024x1024_1_0_0_1_n_n.contr.Idx) : (dot_S1024x64_S64x1024_S1024x1024_1_0_0_1_n_n.rhsIdx j q 1).val = (j 1).val := by
  unfold DotDims.rhsIdx
  rw [dif_neg (show ¬(1 : Fin S64x1024.rank) ∈ dot_S1024x64_S64x1024_S1024x1024_1_0_0_1_n_n.rhsBatch by decide), dif_pos (show (1 : Fin S64x1024.rank) ∈ dot_S1024x64_S64x1024_S1024x1024_1_0_0_1_n_n.rhsNonContracting by decide)]
  rfl
/-- A [1024,64] by [64,1024] product into the zero accumulator, at (n, t): the sum over the 64 contracted coordinates. -/
theorem mm_corr {φ₁ φ₂ : FTy} (prec : Option ContractPrecision) (a : FVec Ideal S1024x64 φ₁) (b : FVec Ideal S64x1024 φ₂)
    (n : Fin 1024) (t : Fin 1024) :
    FloatOps.matmul dot_S1024x64_S64x1024_S1024x1024_1_0_0_1_n_n prec a b (constant S1024x1024 .f32 0x00000000#32) (ix2 n t)
      = ∑ k : Fin 64, a (ix2 n k) * b (ix2 k t) := by
  rw [Ideal.matmul_constant_zero_apply, ← Equiv.sum_comp (ValueIdx.contrEquiv1 dot_S1024x64_S64x1024_S1024x1024_1_0_0_1_n_n 64 rfl rfl).symm]
  refine Finset.sum_congr rfl fun k _ => ?_
  have hk := ValueIdx.contrEquiv1_symm_val dot_S1024x64_S64x1024_S1024x1024_1_0_0_1_n_n 64 rfl rfl k
  have el : dot_S1024x64_S64x1024_S1024x1024_1_0_0_1_n_n.lhsIdx (ix2 n t) ((ValueIdx.contrEquiv1 dot_S1024x64_S64x1024_S1024x1024_1_0_0_1_n_n 64 rfl rfl).symm k) = ix2 n k := funext fun x => Fin.ext (by
    match x with
    | ⟨0, _⟩ => exact mm_corr_l0 _ _
    | ⟨1, _⟩ => exact (dot_S1024x64_S64x1024_S1024x1024_1_0_0_1_n_n.lhsIdx_val_of_single rfl _ _).trans hk)
  have er : dot_S1024x64_S64x1024_S1024x1024_1_0_0_1_n_n.rhsIdx (ix2 n t) ((ValueIdx.contrEquiv1 dot_S1024x64_S64x1024_S1024x1024_1_0_0_1_n_n 64 rfl rfl).symm k) = ix2 k t := funext fun x => Fin.ext (by
    match x with
    | ⟨0, _⟩ => exact (dot_S1024x64_S64x1024_S1024x1024_1_0_0_1_n_n.rhsIdx_val_of_single rfl _ _).trans hk
    | ⟨1, _⟩ => exact mm_corr_r1 _ _)
  rw [el, er]

/-! ## The layout operations at an index -/

/-- A [1, 1024, 128] block viewed as [1024, 128] reads (n, d) at (0, n, d). -/
theorem drop_unit_128 {α : Type} (v : S1x1024x128.Idx → α) (h : S1x1024x128.ShapeCasts S1024x128) (n : Fin 1024) (d : Fin 128) :
    shapeCast S1024x128 v h (ix2 n d) = v (ix3 (0 : Fin 1) n d) := by
  refine (shapeCast_dropUnit_apply ![1024, 128] v h (ix2 n d)).trans (congrArg v ?_)
  funext a
  match a with
  | ⟨0, _⟩ => rfl
  | ⟨1, _⟩ => rfl
  | ⟨2, _⟩ => rfl

/-- A [1024, 1024] result stored as a [1, 1024, 1024] block reads (0, n, t) at (n, t). -/
theorem add_unit_1024 {α : Type} (v : S1024x1024.Idx → α) (h : S1024x1024.ShapeCasts S1x1024x1024) (n t : Fin 1024) :
    shapeCast S1x1024x1024 v h (ix3 (0 : Fin 1) n t) = v (ix2 n t) := by
  refine (shapeCast_addUnit_apply ![1024, 1024] v h (ix3 (0 : Fin 1) n t)).trans (congrArg v ?_)
  funext a
  match a with
  | ⟨0, _⟩ => rfl
  | ⟨1, _⟩ => rfl

/-- The transposed key block reads (d, t) at (t, d). -/
theorem transpose_keys {α : Type} (v : S1024x128.Idx → α) (h : S1024x128.Transposes [1, 0] S128x1024) (d : Fin 128) (t : Fin 1024) :
    transpose S128x1024 [1, 0] v h (ix2 d t) = v (ix2 t d) :=
  transpose_apply [1, 0] v h (ix2 d t) (ix2 t d) (fun b => by
    match b with
    | ⟨0, _⟩ => rfl
    | ⟨1, _⟩ => rfl)

/-- The transposed sign block reads (r, t) at (t, r). -/
theorem transpose_signs {α : Type} (v : S1024x64.Idx → α) (h : S1024x64.Transposes [1, 0] S64x1024) (r : Fin 64) (t : Fin 1024) :
    transpose S64x1024 [1, 0] v h (ix2 r t) = v (ix2 t r) :=
  transpose_apply [1, 0] v h (ix2 r t) (ix2 t r) (fun b => by
    match b with
    | ⟨0, _⟩ => rfl
    | ⟨1, _⟩ => rfl)

/-! ## The sign, as the body spells it -/

/-- The body's spelling of the sign of `x`: `x` itself where `|x|` is not above zero, else −1 below zero and 1 otherwise. -/
def signSel (x : Ideal .f32) : Ideal .f32 :=
  Scalar.select (FloatOps.cmpf .ogt (FloatOps.absf x) (Scalar.ofBits .f32 0x00000000#32))
    (Scalar.select (FloatOps.cmpf .olt x (FloatOps.ofBits .f32 0x00000000#32)) (FloatOps.ofBits .f32 0xBF800000#32) (FloatOps.ofBits .f32 0x3F800000#32))
    x

/-- The word of −1.0 denotes −1 and the word of 1.0 denotes 1. -/
theorem word_neg_one : Ideal.ofBits .f32 0xBF800000#32 = -1 := by
  simp [Ideal.ofBits, Ideal.ieee, -EReal.coe_mul]; norm_num
theorem word_one : Ideal.ofBits .f32 0x3F800000#32 = 1 := by
  simp [Ideal.ofBits, Ideal.ieee, -EReal.coe_mul]; norm_num

/-- On every extended real the body's spelling is the sign function: both infinities have an infinite absolute value
    and the sign of their side; a real is compared with zero. -/
theorem signSel_eq (x : EReal) : signSel x = Ideal.sign x := by
  unfold signSel
  show Scalar.select (Ideal.cmp .ogt (max x (-x)) (Ideal.ofBits .f32 0x00000000#32))
    (Scalar.select (Ideal.cmp .olt x (Ideal.ofBits .f32 0x00000000#32)) (Ideal.ofBits .f32 0xBF800000#32) (Ideal.ofBits .f32 0x3F800000#32)) x = _
  rw [Ideal.ofBits_zero_f32, word_neg_one, word_one]
  induction x using EReal.rec with
  | bot => simp [Ideal.cmp, Scalar.select]
  | top => simp [Ideal.cmp, Scalar.select]
  | coe r =>
    rw [Ideal.sign_coe]
    rcases lt_trichotomy r 0 with h | h | h
    · have h1 : (0 : EReal) < max (r : EReal) (-(r : EReal)) := lt_max_of_lt_right (by
        rw [← EReal.coe_neg]; exact_mod_cast neg_pos.mpr h)
      have h2 : (r : EReal) < 0 := by exact_mod_cast h
      simp [Ideal.cmp, Scalar.select, h1, h2, sign_neg h]
    · subst h
      simp [Ideal.cmp, Scalar.select]
    · have h1 : (0 : EReal) < max (r : EReal) (-(r : EReal)) := lt_max_of_lt_left (by exact_mod_cast h)
      have h2 : ¬ (r : EReal) < 0 := by
        intro hh; exact absurd (by exact_mod_cast hh : r < 0) (not_lt.mpr h.le)
      simp [Ideal.cmp, Scalar.select, h1, h2, sign_pos h]

/-! ## The payloads at an index -/

/-- The sign payload at (row `r`, column `j`): the sign of the key row's residual projected on column `j`. -/
theorem pay1_at (ko kq : Vec Ideal S1x1024x128 .f32) (g : Vec Ideal S128x64 .f32) (r : Fin 1024) (j : Fin 64) :
    k0_pay1 ko kq g (ix2 r j)
      = Ideal.sign (∑ d : Fin 128, (ko (ix3 (0 : Fin 1) r d) - kq (ix3 (0 : Fin 1) r d)) * g (ix2 d j)) := by
  unfold k0_pay1
  refine (congrFun (shapeCast_self _ _) (ix2 r j)).trans ?_
  refine Eq.trans (b := signSel (FloatOps.matmul dot_S1024x128_S128x64_S1024x64_1_0_0_1_n_n (some .fp32)
    (subf (shapeCast S1024x128 ko shapeCasts_S1x1024x128_S1024x128) (shapeCast S1024x128 kq shapeCasts_S1x1024x128_S1024x128))
    g (constant S1024x64 .f32 0x00000000#32) (ix2 r j))) rfl ?_
  refine (signSel_eq _).trans (congrArg Ideal.sign ?_)
  refine (mm_proj (some .fp32) _ g r j).trans (Finset.sum_congr rfl fun d _ => ?_)
  refine congrArg (· * g (ix2 d j)) ?_
  show shapeCast S1024x128 ko shapeCasts_S1x1024x128_S1024x128 (ix2 r d) - shapeCast S1024x128 kq shapeCasts_S1x1024x128_S1024x128 (ix2 r d) = _
  rw [drop_unit_128, drop_unit_128]

/-- The score payload at (0, `n`, `t`): the uncorrected score of query row `n` against key row `t`, plus the query row's
    projection scaled by 1/64 contracted with the sign block's row `t`. -/
theorem pay2_at (q kq : Vec Ideal S1x1024x128 .f32) (g : Vec Ideal S128x64 .f32) (s : Vec Ideal S1024x64 .bf16) (n t : Fin 1024) :
    k0_pay2 q kq g s (ix3 (0 : Fin 1) n t)
      = (∑ d : Fin 128, q (ix3 (0 : Fin 1) n d) * kq (ix3 (0 : Fin 1) t d))
        + ∑ r : Fin 64, ((∑ d : Fin 128, q (ix3 (0 : Fin 1) n d) * g (ix2 d r)) * Ideal.ofBits .f32 0x3C800000#32) * s (ix2 t r) := by
  unfold k0_pay2
  refine (add_unit_1024 _ _ n t).trans ?_
  refine Eq.trans (b := FloatOps.matmul dot_S1024x128_S128x1024_S1024x1024_1_0_0_1_n_n none
        (truncf .bf16 (shapeCast S1024x128 q shapeCasts_S1x1024x128_S1024x128) bitsLt_bf16_f32)
        (transpose S128x1024 [1, 0] (truncf .bf16 (shapeCast S1024x128 kq shapeCasts_S1x1024x128_S1024x128) bitsLt_bf16_f32) transposes_S1024x128_p1_0_S128x1024)
        (constant S1024x1024 .f32 0x00000000#32) (ix2 n t)
      + FloatOps.matmul dot_S1024x64_S64x1024_S1024x1024_1_0_0_1_n_n none
        (truncf .bf16 (mulf (matmul dot_S1024x128_S128x64_S1024x64_1_0_0_1_n_n none
            (truncf .bf16 (shapeCast S1024x128 q shapeCasts_S1x1024x128_S1024x128) bitsLt_bf16_f32)
            (truncf .bf16 g bitsLt_bf16_f32) (constant S1024x64 .f32 0x00000000#32))
          (broadcast S1024x64 (Scalar.ofBits .f32 0x3C800000#32))) bitsLt_bf16_f32)
        (transpose S64x1024 [1, 0] s transposes_S1024x64_p1_0_S64x1024)
        (constant S1024x1024 .f32 0x00000000#32) (ix2 n t)) rfl ?_
  refine congrArg₂ (· + ·) ?_ ?_
  · refine (mm_raw none _ _ n t).trans (Finset.sum_congr rfl fun d _ => ?_)
    refine congrArg₂ (· * ·) ?_ ?_
    · exact drop_unit_128 q _ n d
    · refine (transpose_keys _ _ d t).trans ?_
      exact drop_unit_128 kq _ t d
  · refine (mm_corr none _ _ n t).trans (Finset.sum_congr rfl fun r _ => ?_)
    refine congrArg₂ (· * ·) ?_ ?_
    · show (matmul dot_S1024x128_S128x64_S1024x64_1_0_0_1_n_n none
            (truncf .bf16 (shapeCast S1024x128 q shapeCasts_S1x1024x128_S1024x128) bitsLt_bf16_f32)
            (truncf .bf16 g bitsLt_bf16_f32) (constant S1024x64 .f32 0x00000000#32)) (ix2 n r) * Ideal.ofBits .f32 0x3C800000#32 = _
      refine congrArg (· * Ideal.ofBits .f32 0x3C800000#32) ?_
      refine (mm_proj none _ _ n r).trans (Finset.sum_congr rfl fun d _ => ?_)
      refine congrArg (· * g (ix2 d r)) ?_
      exact drop_unit_128 q _ n d
    · exact transpose_signs s _ r t

end Cert.KernelIdeal.KV

end
-- ==== Proof.Blocks.lean ====
/-
  The blocks the body reads, as entries of the argument arrays.

  The grid has 32 · 2 · 2 points; point number `t` is batch-head  t / 4,  key tile  (t / 2) % 2  and query tile  t % 2
  (the query tile runs fastest). At point `t` the query block is rows  (t % 2) · 1024 + r  of batch-head  t / 4  of the
  queries, both key blocks are rows  ((t / 2) % 2) · 1024 + r  of the same batch-head of the keys, the projection matrix
  is read whole, and the score block written back is rows  (t % 2) · 1024 + n,  columns  ((t / 2) % 2) · 1024 + t'  of that
  batch-head of the scores. The three [32, 2048, 128] arrays the region reads are the [1, 32, 2048, 128] arguments with
  the leading unit axis dropped, so entry (bh, r, d) of each is entry (0, bh, r, d) of its argument.
-/
import proofs.«119321_j19490561589515_2_alg».proof.Proof.Gen.KernelIdeal.Frame
import Idealize.ShloMosaic.Lib.Pipeline.Value
import Idealize.ShloMosaic.Lib.ValueIdx
import Idealize.ShloMosaic.Lib.StableHlo.Run

set_option maxRecDepth 16384

noncomputable section

open Idealize.ShloMosaic Idealize.ShloMosaic.TcCoe Idealize.ShloMosaic.ValueIdx Idealize.SL.Sem
open Idealize.ShloMosaic.Pipeline (Dat)

namespace Cert.KernelIdeal.KV

open Cert.KernelIdeal Cert.KernelIdeal.Gen

variable {F : FTy → Type} [FloatOps F]
variable (m : (ℓ : Loc nD τ sig) → Buf (Elt F) ℓ)

/-- The grid has 128 points. -/
theorem N_eq : cfg0.N = 128 := N_0

/-- The batch-head of point `t`. -/
def bhOf (t : Fin cfg0.N) : Fin 32 := ⟨t.val / 4, by have h : t.val < 128 := lt_of_lt_of_eq t.isLt N_eq; omega⟩

/-- Row `r` of tile `half` (0 or 1) of a 2048-row axis. -/
def rowOf (half : Nat) (hh : half < 2) (r : Fin 1024) : Fin 2048 := ⟨half * 1024 + r.val, by have := r.isLt; omega⟩

/-- The block indices of the five windows at point `t`, decided over the grid. -/
theorem idx_facts : ∀ t : Fin cfg0.N,
    win0_0.index t (0 : Fin 3) = t.val / 4 ∧ win0_0.index t (1 : Fin 3) = t.val % 2 ∧ win0_0.index t (2 : Fin 3) = 0
    ∧ win0_1.index t (0 : Fin 3) = t.val / 4 ∧ win0_1.index t (1 : Fin 3) = t.val / 2 % 2 ∧ win0_1.index t (2 : Fin 3) = 0
    ∧ win0_2.index t (0 : Fin 3) = t.val / 4 ∧ win0_2.index t (1 : Fin 3) = t.val / 2 % 2 ∧ win0_2.index t (2 : Fin 3) = 0
    ∧ win0_3.index t (0 : Fin 2) = 0 ∧ win0_3.index t (1 : Fin 2) = 0
    ∧ win0_4.index t (0 : Fin 3) = t.val / 4 ∧ win0_4.index t (1 : Fin 3) = t.val % 2 ∧ win0_4.index t (2 : Fin 3) = t.val / 2 % 2 :=
  (by decide +kernel : ∀ t : Fin grid0.N, _)

/-! ## The arrays as the region finds them -/

/-- The region's query array is the queries with the unit axis dropped; -/
theorem V_q (c : Dev nD) : (V m c main_v0 : S32x2048x128.Idx → Elt F .f32)
    = shapeCast S32x2048x128 (m ((c : Thread nD τ).loc main_arg0)) shapeCasts_S1x32x2048x128_S32x2048x128 := by
  show StableHlo.after hostOps0 (fun b => m (c, b)) (Proc.devRef .tc main_v0) = _
  after_results
  rfl
/-- its original-key array the original keys; -/
theorem V_ko (c : Dev nD) : (V m c main_v1 : S32x2048x128.Idx → Elt F .f32)
    = shapeCast S32x2048x128 (m ((c : Thread nD τ).loc main_arg1)) shapeCasts_S1x32x2048x128_S32x2048x128 := by
  show StableHlo.after hostOps0 (fun b => m (c, b)) (Proc.devRef .tc main_v1) = _
  after_results
  rfl
/-- its quantized-key array the quantized keys. -/
theorem V_kq (c : Dev nD) : (V m c main_v2 : S32x2048x128.Idx → Elt F .f32)
    = shapeCast S32x2048x128 (m ((c : Thread nD τ).loc main_arg2)) shapeCasts_S1x32x2048x128_S32x2048x128 := by
  show StableHlo.after hostOps0 (fun b => m (c, b)) (Proc.devRef .tc main_v2) = _
  after_results
  rfl

/-- Entry (bh, r, d) of a [1, 32, 2048, 128] array with its unit axis dropped is entry (0, bh, r, d). -/
theorem drop_unit_arg {α : Type} (x : S1x32x2048x128.Idx → α) (h : S1x32x2048x128.ShapeCasts S32x2048x128)
    (bh : Fin 32) (r : Fin 2048) (d : Fin 128) :
    shapeCast S32x2048x128 x h (ix3 bh r d) = x (ix4 (0 : Fin 1) bh r d) := by
  refine (shapeCast_dropUnit_apply ![32, 2048, 128] x h (ix3 bh r d)).trans (congrArg x ?_)
  funext a
  match a with
  | ⟨0, _⟩ => rfl
  | ⟨1, _⟩ => rfl
  | ⟨2, _⟩ => rfl
  | ⟨3, _⟩ => rfl

/-! ## The input blocks at an index -/

/-- The query block of point `t` at (0, r, d). -/
theorem qblk_at (c : Dev nD) (t : Fin cfg0.N) (r : Fin 1024) (d : Fin 128) :
    (iblk m c 0 t : Vec F S1x1024x128 .f32) (ix3 (0 : Fin 1) r d)
      = m ((c : Thread nD τ).loc main_arg0) (ix4 (0 : Fin 1) (bhOf t) (rowOf (t.val % 2) (Nat.mod_lt _ (by decide)) r) d) := by
  obtain ⟨e0, e1, e2, -⟩ := idx_facts t
  unfold iblk
  rw [View.read_apply]
  show V m c main_v0 _ = _
  rw [V_q]
  refine Eq.trans (congrArg _ ?_) (drop_unit_arg _ _ (bhOf t) (rowOf (t.val % 2) (Nat.mod_lt _ (by decide)) r) d)
  funext a
  apply Fin.ext
  match a with
  | ⟨0, _⟩ => show win0_0.index t (0 : Fin 3) * 1 + 1 * 0 = t.val / 4; omega
  | ⟨1, _⟩ => show win0_0.index t (1 : Fin 3) * 1024 + 1 * r.val = t.val % 2 * 1024 + r.val; omega
  | ⟨2, _⟩ => show win0_0.index t (2 : Fin 3) * 128 + 1 * d.val = d.val; omega

/-- The quantized-key block of point \`t\` at (0, r, d). -/
theorem kqblk_at (c : Dev nD) (t : Fin cfg0.N) (r : Fin 1024) (d : Fin 128) :
    (iblk m c 1 t : Vec F S1x1024x128 .f32) (ix3 (0 : Fin 1) r d)
      = m ((c : Thread nD τ).loc main_arg2) (ix4 (0 : Fin 1) (bhOf t) (rowOf (t.val / 2 % 2) (Nat.mod_lt _ (by decide)) r) d) := by
  obtain ⟨-, -, -, e0, e1, e2, -⟩ := idx_facts t
  unfold iblk
  rw [View.read_apply]
  show V m c main_v2 _ = _
  rw [V_kq]
  refine Eq.trans (congrArg _ ?_) (drop_unit_arg _ _ (bhOf t) (rowOf (t.val / 2 % 2) (Nat.mod_lt _ (by decide)) r) d)
  funext a
  apply Fin.ext
  match a with
  | ⟨0, _⟩ => show win0_1.index t (0 : Fin 3) * 1 + 1 * 0 = t.val / 4; omega
  | ⟨1, _⟩ => show win0_1.index t (1 : Fin 3) * 1024 + 1 * r.val = t.val / 2 % 2 * 1024 + r.val; omega
  | ⟨2, _⟩ => show win0_1.index t (2 : Fin 3) * 128 + 1 * d.val = d.val; omega

/-- The original-key block of point \`t\` at (0, r, d). -/
theorem koblk_at (c : Dev nD) (t : Fin cfg0.N) (r : Fin 1024) (d : Fin 128) :
    (iblk m c 2 t : Vec F S1x1024x128 .f32) (ix3 (0 : Fin 1) r d)
      = m ((c : Thread nD τ).loc main_arg1) (ix4 (0 : Fin 1) (bhOf t) (rowOf (t.val / 2 % 2) (Nat.mod_lt _ (by decide)) r) d) := by
  obtain ⟨-, -, -, -, -, -, e0, e1, e2, -⟩ := idx_facts t
  unfold iblk
  rw [View.read_apply]
  show V m c main_v1 _ = _
  rw [V_ko]
  refine Eq.trans (congrArg _ ?_) (drop_unit_arg _ _ (bhOf t) (rowOf (t.val / 2 % 2) (Nat.mod_lt _ (by decide)) r) d)
  funext a
  apply Fin.ext
  match a with
  | ⟨0, _⟩ => show win0_2.index t (0 : Fin 3) * 1 + 1 * 0 = t.val / 4; omega
  | ⟨1, _⟩ => show win0_2.index t (1 : Fin 3) * 1024 + 1 * r.val = t.val / 2 % 2 * 1024 + r.val; omega
  | ⟨2, _⟩ => show win0_2.index t (2 : Fin 3) * 128 + 1 * d.val = d.val; omega

/-- The projection matrix is read whole at every point. -/
theorem gblk_at (c : Dev nD) (t : Fin cfg0.N) (d : Fin 128) (j : Fin 64) :
    (iblk m c 3 t : Vec F S128x64 .f32) (ix2 d j) = m ((c : Thread nD τ).loc main_arg3) (ix2 d j) := by
  obtain ⟨-, -, -, -, -, -, -, -, -, e0, e1, -⟩ := idx_facts t
  unfold iblk
  rw [View.read_apply]
  show V m c main_arg3 _ = _
  rw [V_main_arg3]
  refine congrArg _ ?_
  funext a
  apply Fin.ext
  match a with
  | ⟨0, _⟩ => show win0_3.index t (0 : Fin 2) * 128 + 1 * d.val = d.val; omega
  | ⟨1, _⟩ => show win0_3.index t (1 : Fin 2) * 64 + 1 * j.val = j.val; omega

end Cert.KernelIdeal.KV

end
-- ==== Proof.Points.lean ====
/-
  What each grid point leaves, as entries of the specification.

  Point `t` is batch-head  t / 4,  key tile  (t / 2) % 2,  query tile  t % 2.  The carried buffer holds the sign block of
  the point's key tile: an even point computes it from its own key blocks, and an odd point `t` finds what point  t − 1
  left — the same batch-head and the same key tile, since only the query tile moved. So after EVERY point the carried
  buffer at (row r, column j) is  sgn  of key row  ((t / 2) % 2) · 1024 + r  on column `j`, and the score block the point
  stores at (0, n, t') is the specification's score of query row  (t % 2) · 1024 + n  against key row
  ((t / 2) % 2) · 1024 + t'  of batch-head  t / 4.
-/
import proofs.«119321_j19490561589515_2_alg».proof.Proof.Spec
import proofs.«119321_j19490561589515_2_alg».proof.Proof.Pieces
import proofs.«119321_j19490561589515_2_alg».proof.Proof.Payload
import proofs.«119321_j19490561589515_2_alg».proof.Proof.Blocks

set_option maxRecDepth 16384

noncomputable section

open Idealize.ShloMosaic Idealize.ShloMosaic.TcCoe Idealize.ShloMosaic.ValueIdx Idealize.SL.Sem
open Idealize.ShloMosaic.Pipeline (Dat)

namespace Cert.KernelIdeal.KV

open Cert.KernelIdeal Cert.KernelIdeal.Gen

variable (m : (ℓ : Loc nD τ sig) → Buf (Elt Ideal) ℓ)

/-- The four argument arrays on core `c`: the queries, the original keys, the quantized keys, the projection matrix. -/
abbrev argQ (c : Dev nD) : Cert.Spec.SX.Idx → EReal := m ((c : Thread nD τ).loc main_arg0)
abbrev argKO (c : Dev nD) : Cert.Spec.SX.Idx → EReal := m ((c : Thread nD τ).loc main_arg1)
abbrev argKQ (c : Dev nD) : Cert.Spec.SX.Idx → EReal := m ((c : Thread nD τ).loc main_arg2)
abbrev argG (c : Dev nD) : Cert.Spec.SG.Idx → EReal := m ((c : Thread nD τ).loc main_arg3)

/-- The sign block computed from the key blocks of point `t`, at (row r, column j). -/
theorem sign_of_blocks (c : Dev nD) (t : Fin cfg0.N) (r : Fin 1024) (j : Fin 64) :
    k0_pay1 (iblk m c 2 t) (iblk m c 1 t) (iblk m c 3 t) (ix2 r j)
      = Cert.Spec.sgn (argKO m c) (argKQ m c) (argG m c) (0 : Fin 1) (bhOf t) (rowOf (t.val / 2 % 2) (Nat.mod_lt _ (by decide)) r) j := by
  refine (pay1_at (iblk m c 2 t) (iblk m c 1 t) (iblk m c 3 t) r j).trans ?_
  unfold Cert.Spec.sgn
  refine congrArg Ideal.sign (Finset.sum_congr rfl fun d _ => ?_)
  rw [koblk_at m c t r d, kqblk_at m c t r d, gblk_at m c t d j]

/-- The point before `t`. -/
def prev (t : Fin cfg0.N) : Fin cfg0.N := ⟨t.val - 1, Nat.lt_of_le_of_lt (Nat.sub_le _ _) t.isLt⟩

/-- An odd point and the point before it share the batch-head and the key tile. -/
theorem prev_bh (t : Fin cfg0.N) (h0 : ¬t.val % 2 = 0) : bhOf (prev t) = bhOf t :=
  Fin.ext (by show (t.val - 1) / 4 = t.val / 4; omega)
theorem prev_tile (t : Fin cfg0.N) (h0 : ¬t.val % 2 = 0) : (prev t).val / 2 % 2 = t.val / 2 % 2 := by
  show (t.val - 1) / 2 % 2 = t.val / 2 % 2; omega
theorem prev_even (t : Fin cfg0.N) (h0 : ¬t.val % 2 = 0) : (prev t).val % 2 = 0 := by
  show (t.val - 1) % 2 = 0; omega

/-- THE CARRIED BUFFER after any point `t`: the signs of the point's key tile. -/
theorem carried_at (c : Dev nD) (t : Fin cfg0.N) (r : Fin 1024) (j : Fin 64) :
    (outsAt0 m c t.val t.isLt).2 (ix2 r j)
      = Cert.Spec.sgn (argKO m c) (argKQ m c) (argG m c) (0 : Fin 1) (bhOf t) (rowOf (t.val / 2 % 2) (Nat.mod_lt _ (by decide)) r) j := by
  by_cases h0 : t.val % 2 = 0
  · rw [outsAt0_A m c t h0]
    dsimp only
    rw [scratch_A c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t) (iblk m c 3 t)]
    exact sign_of_blocks m c t r j
  · rw [outsAt0_B m c t h0]
    dsimp only
    unfold sout0_B_0
    show (outsAt0 m c (prev t).val (prev t).isLt).2 (ix2 r j) = _
    rw [outsAt0_A m c (prev t) (prev_even t h0)]
    dsimp only
    rw [scratch_A c (grid0.coords (prev t)) (ms0_0 (prev t)) (hs0_0 (prev t)) (ms0_1 (prev t)) (hs0_1 (prev t)) (ms0_2 (prev t)) (hs0_2 (prev t)) (ms0_3 (prev t)) (hs0_3 (prev t)) (ms0_4 (prev t)) (hs0_4 (prev t)) scM0_0 (Memref.isWhole_whole _) ((hcond0_0 (prev t)).mpr (prev_even t h0)) (iblk m c 0 (prev t)) (iblk m c 1 (prev t)) (iblk m c 2 (prev t)) (iblk m c 3 (prev t))]
    refine (sign_of_blocks m c (prev t) r j).trans ?_
    rw [prev_bh t h0]
    refine congrArg (fun x => Cert.Spec.sgn (argKO m c) (argKQ m c) (argG m c) (0 : Fin 1) (bhOf t) x j) ?_
    exact Fin.ext (by show (prev t).val / 2 % 2 * 1024 + r.val = t.val / 2 % 2 * 1024 + r.val; rw [prev_tile t h0])

/-- The score payload of point `t`'s blocks with the sign block `s` of its key tile, at (0, n, t'). -/
theorem score_of_blocks (c : Dev nD) (t : Fin cfg0.N) (s : Vec Ideal S1024x64 .bf16)
    (hs : ∀ (r : Fin 1024) (j : Fin 64), s (ix2 r j)
      = Cert.Spec.sgn (argKO m c) (argKQ m c) (argG m c) (0 : Fin 1) (bhOf t) (rowOf (t.val / 2 % 2) (Nat.mod_lt _ (by decide)) r) j)
    (n t' : Fin 1024) :
    k0_pay2 (iblk m c 0 t) (iblk m c 1 t) (iblk m c 3 t) s (ix3 (0 : Fin 1) n t')
      = Cert.Spec.score4 (argQ m c) (argKO m c) (argKQ m c) (argG m c) (0 : Fin 1) (bhOf t)
          (rowOf (t.val % 2) (Nat.mod_lt _ (by decide)) n) (rowOf (t.val / 2 % 2) (Nat.mod_lt _ (by decide)) t') := by
  refine (pay2_at (iblk m c 0 t) (iblk m c 1 t) (iblk m c 3 t) s n t').trans ?_
  unfold Cert.Spec.score4 Cert.Spec.raw Cert.Spec.proj
  refine congrArg₂ (· + ·) (Finset.sum_congr rfl fun d _ => ?_) (Finset.sum_congr rfl fun r _ => ?_)
  · rw [qblk_at m c t n d, kqblk_at m c t t' d]
  · rw [hs t' r]
    refine congrArg (fun x => x * Ideal.ofBits .f32 0x3C800000#32 * _) (Finset.sum_congr rfl fun d _ => ?_)
    rw [qblk_at m c t n d, gblk_at m c t d r]

/-- THE SCORE BLOCK point `t` stores, at (0, n, t'). -/
theorem stored_at (c : Dev nD) (t : Fin cfg0.N) (n t' : Fin 1024) :
    (outsAt0 m c t.val t.isLt).1 (ix3 (0 : Fin 1) n t')
      = Cert.Spec.score4 (argQ m c) (argKO m c) (argKQ m c) (argG m c) (0 : Fin 1) (bhOf t)
          (rowOf (t.val % 2) (Nat.mod_lt _ (by decide)) n) (rowOf (t.val / 2 % 2) (Nat.mod_lt _ (by decide)) t') := by
  by_cases h0 : t.val % 2 = 0
  · rw [outsAt0_A m c t h0]
    dsimp only
    rw [out_A c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t) (iblk m c 3 t)]
    exact score_of_blocks m c t _ (fun r j => sign_of_blocks m c t r j) n t'
  · rw [outsAt0_B m c t h0]
    dsimp only
    rw [out_B c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2]
    refine score_of_blocks m c t _ (fun r j => ?_) n t'
    have hp := carried_at m c (prev t) r j
    rw [prev_bh t h0] at hp
    refine hp.trans (congrArg (fun x => Cert.Spec.sgn (argKO m c) (argKQ m c) (argG m c) (0 : Fin 1) (bhOf t) x j) ?_)
    exact Fin.ext (by show (prev t).val / 2 % 2 * 1024 + r.val = t.val / 2 % 2 * 1024 + r.val; rw [prev_tile t h0])

end Cert.KernelIdeal.KV

end
-- ==== Proof.Cover.lean ====
/-
  The output array, block by block, and the reshape after the region.

  The region writes an array of shape [32, 2048, 2048] through a window of blocks of shape [1, 1024, 1024]: the
  array is a 32 × 2 × 2 arrangement of 128 blocks.  The grid has 32 · 2 · 2 = 128 points; the point numbered t
  has coordinates (t / 4, (t / 2) % 2, t % 2), and the window's index map sends it to the block

      ( t / 4 ,  t % 2 ,  (t / 2) % 2 )

  that is: the first grid coordinate picks the slab, the LAST grid coordinate picks the block of rows and the
  MIDDLE one the block of columns.  Every point writes its block back.

  An index (s, r, c) of the array lies in the block (s, r / 1024, c / 1024), and that block is the one of the
  point t = 4 s + 2 (c / 1024) + (r / 1024): indeed t / 4 = s, t % 2 = r / 1024 and (t / 2) % 2 = c / 1024, since
  r / 1024 and c / 1024 are 0 or 1.  So every index of the array is in the block of some point that writes back:
  the blocks cover the array.

  After the region one operation remains, a reshape [32, 2048, 2048] → [1, 32, 2048, 2048].  It adds a leading axis of
  extent 1 and keeps the row-major order, so the result at (0, s, r, c) is the array at (s, r, c); and the result
  buffer is written by that operation only, from the array as the region leaves it.
-/
import proofs.«119321_j19490561589515_2_alg».proof.Proof.Gen.KernelIdeal.Frame
import Idealize.ShloMosaic.Lib.Pipeline.Value
import Idealize.ShloMosaic.Lib.ValueIdx
import Idealize.ShloMosaic.Lib.StableHlo.Run

-- membership in a rectangle with extents in the thousands: one structural step per coordinate
set_option maxRecDepth 16384

noncomputable section

namespace Cert.KernelIdeal.KV

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-! ## The blocks of the output array -/

/-- The block point t writes: slab t / 4, block of rows t % 2, block of columns (t / 2) % 2 — decided over the
    128 points. -/
theorem out_idx_facts : ∀ t : Fin cfg0.N, win0_4.index t (0 : Fin 3) = t.val / 4
    ∧ win0_4.index t (1 : Fin 3) = t.val % 2 ∧ win0_4.index t (2 : Fin 3) = t.val / 2 % 2 :=
  (by decide +kernel : ∀ t : Fin grid0.N, _)

/-- An index of the array is in point t's block iff on every axis its coordinate is in the block's range
    [index · size, index · size + size). -/
theorem mem_out_blk (t : Fin cfg0.N) (i : S32x2048x2048.Idx) :
    i ∈ ((cfg0.win 4).blk t).view.set ↔ ∀ a : Fin 3, win0_4.index t a * S1x1024x1024.size a ≤ (i a).val ∧ (i a).val < win0_4.index t a * S1x1024x1024.size a + S1x1024x1024.size a := by
  show i ∈ ((View.whole main_v3).slice (win0_4.rect t)).set ↔ _
  rw [View.set_slice_whole, Rect.mem_set_unit]
  exact Iff.rfl

/-- The blocks cover the array: the index (s, r, c) is in the block of the point 4 s + 2 (c / 1024) + r / 1024, which
    writes back as every point does. -/
theorem out_cover (i : S32x2048x2048.Idx) :
    ∃ t : Fin cfg0.N, (cfg0.win 4).flush t = true ∧ i ∈ ((cfg0.win 4).blk t).view.set := by
  have hi0 : (i 0).val < 32 := (i 0).isLt
  have hi1 : (i 1).val < 2048 := (i 1).isLt
  have hi2 : (i 2).val < 2048 := (i 2).isLt
  obtain ⟨n, hn⟩ : ∃ n : Nat, n = (i 0).val * 4 + (i 2).val / 1024 * 2 + (i 1).val / 1024 := ⟨_, rfl⟩
  have hlt : n < cfg0.N := lt_of_lt_of_eq (by omega : n < 128) N_0.symm
  obtain ⟨e0, e1, e2⟩ := out_idx_facts ⟨n, hlt⟩
  have f0 : win0_4.index ⟨n, hlt⟩ (0 : Fin 3) = n / 4 := e0
  have f1 : win0_4.index ⟨n, hlt⟩ (1 : Fin 3) = n % 2 := e1
  have f2 : win0_4.index ⟨n, hlt⟩ (2 : Fin 3) = n / 2 % 2 := e2
  refine ⟨⟨n, hlt⟩, flush0_4 _, ?_⟩
  rw [mem_out_blk]
  intro a
  match a with
  | ⟨0, _⟩ => show win0_4.index ⟨n, hlt⟩ (0 : Fin 3) * 1 ≤ (i 0).val ∧ (i 0).val < win0_4.index ⟨n, hlt⟩ (0 : Fin 3) * 1 + 1; rw [f0]; omega
  | ⟨1, _⟩ => show win0_4.index ⟨n, hlt⟩ (1 : Fin 3) * 1024 ≤ (i 1).val ∧ (i 1).val < win0_4.index ⟨n, hlt⟩ (1 : Fin 3) * 1024 + 1024; rw [f1]; omega
  | ⟨2, _⟩ => show win0_4.index ⟨n, hlt⟩ (2 : Fin 3) * 1024 ≤ (i 2).val ∧ (i 2).val < win0_4.index ⟨n, hlt⟩ (2 : Fin 3) * 1024 + 1024; rw [f2]; omega

/-! ## The reshape after the region -/

/-- Adding a leading axis of extent 1 keeps the row-major position: the reshaped array at (0, s, r, c) is the array
    at (s, r, c). -/
theorem add_unit_out {α : Type} (x : S32x2048x2048.Idx → α) (h : S32x2048x2048.ShapeCasts S1x32x2048x2048)
    (bh : Fin 32) (n t : Fin 2048) :
    shapeCast S1x32x2048x2048 x h (ValueIdx.ix4 (0 : Fin 1) bh n t) = x (ValueIdx.ix3 bh n t) := by
  refine (shapeCast_addUnit_apply (![32, 2048, 2048]) x h _).trans ?_
  exact congrArg x (funext fun a => by fin_cases a <;> rfl)

/-- The result buffer is not touched by the region: it is neither a scoped buffer nor the array of a window. -/
theorem out_mem_rest : main_v4 ∈ Pipeline.restRefs sig (cfgs 0).spec :=
  Pipeline.mem_restRefs_of main_v4 (by decide) (by decide)

/-- What the one operation after the region leaves in the result buffer: the reshape of the output array as the
    region leaves it (its contents after the last point's write-back). -/
theorem tail_eq (c : Dev nD) :
    Pipeline.afterTail₀ cfgs (dats m) 0 (V0 m) [hostOps1] c main_v4
      = shapeCast S1x32x2048x2048 ((dats m 0 c).arrAt 4 cfg0.N) shapeCasts_S32x2048x2048_S1x32x2048x2048 := by
  unfold Pipeline.afterTail₀
  show StableHlo.after hostOps1 _ (Proc.devRef .tc main_v4) = _
  after_results
  have hw : Pipeline.withArrays (cfgs 0).spec c (V0 m c) (fun w => (dats m 0 c).arrAt w (cfgs 0).N) (Proc.devRef .tc main_v3)
      = (dats m 0 c).arrAt 4 cfg0.N := Pipeline.withArrays_arr spec0 launch0.win.arr_inj c _ _ 4
  exact congrArg (fun x : S32x2048x2048.Idx → Elt F .f32 => shapeCast S1x32x2048x2048 x shapeCasts_S32x2048x2048_S1x32x2048x2048) hw

/-- In a final state of the run the result buffer holds the reshape of the output array as the region leaves it. -/
theorem out_post (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_v4)
      = shapeCast S1x32x2048x2048 ((dats m 0 c).arrAt 4 cfg0.N) shapeCasts_S32x2048x2048_S1x32x2048x2048 :=
  ((h c).2 main_v4 out_mem_rest).trans (tail_eq m c)

end Cert.KernelIdeal.KV

end
-- ==== Proof.Final.lean ====
/-
  From the blocks to the whole result.

  Every point writes its score block back, and the blocks tile the [32, 2048, 2048] score array: entry (bh, row, col) is
  in the block of the point with batch-head `bh`, query tile  row / 1024  and key tile  col / 1024.  Each written block is
  the specification's scores restricted to the block, so after the last point the array IS the specification's scores,
  batch-head by batch-head. The one host operation after the region views that array as [1, 32, 2048, 2048]: entry
  (0, bh, row, col) of the result is entry (bh, row, col) of the array. The four arguments end as they began.
-/
import proofs.«119321_j19490561589515_2_alg».proof.Proof.Points
import proofs.«119321_j19490561589515_2_alg».proof.Proof.Cover

set_option maxRecDepth 16384

noncomputable section

open Idealize.ShloMosaic Idealize.ShloMosaic.TcCoe Idealize.ShloMosaic.ValueIdx Idealize.SL.Sem
open Idealize.ShloMosaic.Pipeline (Dat)

namespace Cert.KernelIdeal.KV

open Cert.KernelIdeal Cert.KernelIdeal.Gen

variable (m : (ℓ : Loc nD τ sig) → Buf (Elt Ideal) ℓ) (ρ : Dev nD → PrngReg)

/-- The specification's scores as the region's [32, 2048, 2048] array: entry (bh, row, col). -/
def scores3 (c : Dev nD) : S32x2048x2048.Idx → EReal := fun i =>
  Cert.Spec.score4 (argQ m c) (argKO m c) (argKQ m c) (argG m c) (0 : Fin 1)
    ⟨(i 0).val, (i 0).isLt⟩ ⟨(i 1).val, (i 1).isLt⟩ ⟨(i 2).val, (i 2).isLt⟩

/-- The score block point `t` stores, at any index `y` of the block. -/
theorem stored_at_idx (c : Dev nD) (t : Fin cfg0.N) (y : S1x1024x1024.Idx) :
    (outsAt0 m c t.val t.isLt).1 y
      = Cert.Spec.score4 (argQ m c) (argKO m c) (argKQ m c) (argG m c) (0 : Fin 1) (bhOf t)
          (rowOf (t.val % 2) (Nat.mod_lt _ (by decide)) ⟨(y 1).val, (y 1).isLt⟩)
          (rowOf (t.val / 2 % 2) (Nat.mod_lt _ (by decide)) ⟨(y 2).val, (y 2).isLt⟩) := by
  obtain ⟨b, n, t', rfl⟩ : ∃ (b : Fin 1) (n t' : Fin 1024), y = ix3 b n t' := ⟨y 0, y 1, y 2, eq_ix3 y⟩
  obtain rfl : b = 0 := Subsingleton.elim _ _
  exact stored_at m c t n t'

/-- WHAT POINT `t` WRITES BACK is block `t` of the specification's scores. -/
theorem flushed_eq (c : Dev nD) (t : Fin cfg0.N) :
    (dats m 0 c).flushed 4 t = ((cfg0.win 4).blk t).view.read (Elt Ideal) (scores3 m c) := by
  show (cfg0.win 4).cut (grid0.coords t) ((dats m 0 c).after 4 t) = _
  rw [after0_4]
  obtain ⟨e0, e1, e2⟩ := out_idx_facts t
  funext j
  rw [View.read_apply]
  refine (stored_at_idx m c t j).trans ?_
  unfold scores3
  have h0 : (j 0).val < 1 := (j 0).isLt
  refine congr (congr (congrArg (Cert.Spec.score4 (argQ m c) (argKO m c) (argKQ m c) (argG m c) (0 : Fin 1)) ?_) ?_) ?_
  · exact Fin.ext (by show t.val / 4 = win0_4.index t (0 : Fin 3) * 1 + 1 * (j 0).val; omega)
  · exact Fin.ext (by show t.val % 2 * 1024 + (j 1).val = win0_4.index t (1 : Fin 3) * 1024 + 1 * (j 1).val; omega)
  · exact Fin.ext (by show t.val / 2 % 2 * 1024 + (j 2).val = win0_4.index t (2 : Fin 3) * 1024 + 1 * (j 2).val; omega)

/-- So the region's score array ends at the specification's scores. -/
theorem final_scores (c : Dev nD) : (dats m 0 c).arrAt 4 cfg0.N = scores3 m c :=
  (dats m 0 c).arrAt_eq_of_cover 4 (scores3 m c) (fun t _ => flushed_eq m c t) out_cover

/-- The result of @main, the array viewed with a leading unit axis, is the specification's score. -/
theorem result_eq (c : Dev nD) :
    shapeCast S1x32x2048x2048 (scores3 m c) shapeCasts_S32x2048x2048_S1x32x2048x2048
      = Cert.Spec.score (argQ m c) (argKO m c) (argKQ m c) (argG m c) := by
  funext i
  obtain ⟨b, bh, n, t, rfl⟩ : ∃ (b : Fin 1) (bh : Fin 32) (n t : Fin 2048), i = ix4 b bh n t := ⟨i 0, i 1, i 2, i 3, eq_ix4 i⟩
  obtain rfl : b = 0 := Subsingleton.elim _ _
  rw [add_unit_out]
  rfl

/-- THE RUN, READ: every weakly fair execution of the idealized kernel's @main terminates with its result at the
    specification's score of the argument arrays, and the arguments unchanged. -/
theorem run : θ_run defs (onTc (τ := τ) (main (F := Ideal))) ⟨m, fun _ => 0, ρ⟩ fun r => ∀ c : Dev nD,
      r.2.mem ((c.tc : Thread nD τ).loc main_v4) = Cert.Spec.score (argQ m c) (argKO m c) (argKQ m c) (argG m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v4 out_mem_rest).trans ((tail_eq m c).trans (by rw [final_scores]; exact result_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c)))⟩)
    (run_main m ρ)

end Cert.KernelIdeal.KV

end
-- ==== Proof.RefValue.lean ====
/-
  The reference's result, index by index, is the score in the reference's arrangement.

  The reference computes its scores in eleven array stages.  With `q` the queries, `ko` the original keys, `kq` the
  quantized keys and `g` the projection matrix:

      v0  = ko − kq                         the residual of every key row
      v1  = v0 · g                          the residual projected on the 64 columns (contraction over the 128 features)
      v2  = sign v1                         the sign of each projected residual
      v3  = q · kqᵀ                         the uncorrected scores (per batch and head, contraction over the 128 features)
      v4  = q · g                           the queries projected on the 64 columns
      v5  = 8 everywhere                    (a scalar spread over v4's shape)
      v6  = v4 / v5                         the projected queries divided by 8
      v7  = v6 · v2ᵀ                        contraction over the 64 columns, per batch and head
      v8  = 1/8 everywhere                  (a scalar spread over the scores' shape)
      v9  = v7 · v8                         the contracted sum times 1/8, element by element
      v10 = v3 + v9                         the corrected scores.

  Read at one index (b, h, n, t) of the result, each contraction is a finite sum whose operands are read at an index
  made of some coordinates of (b, h, n, t) and the summation variable.  The lemmas below say which: v3 reads `q` at
  (b, h, n, d) and `kq` at (b, h, t, d); v7 reads v6 at (b, h, n, r) and v2 at (b, h, t, r); there v4 reads `q` at
  (b, h, n, d) and `g` at (d, r), and v1 reads the residual at (b, h, t, d) and `g` at (d, r).  Substituting them,

      v10 (b, h, n, t) = Σ_d q[b,h,n,d] · kq[b,h,t,d]
                         + (Σ_r ((Σ_d q[b,h,n,d] · g[d,r]) / 8) · sign (Σ_d (ko[b,h,t,d] − kq[b,h,t,d]) · g[d,r])) · (1/8),

  which is the specification's `scoreRef` term for term.  No algebraic law is used: both sides are the same expression.
-/
import proofs.«119321_j19490561589515_2_alg».proof.Proof.Gen.ReferenceIdeal.Read
import proofs.«119321_j19490561589515_2_alg».proof.Proof.Spec

noncomputable section

namespace Cert.RefValue

open Idealize.ShloMosaic Idealize.ShloMosaic.ValueIdx Cert.ReferenceIdeal Cert.ReferenceIdeal.Read

/-! ## Where each contraction reads its operands -/

/-- The uncorrected score at (b, h, n, t) reads the queries at (b, h, n, d). -/
theorem lidx_v3 (i : S1x32x2048x2048.Idx) (d : Fin 128) :
    lidx_main_v3 i d
      = ix4 (⟨(i 0).val, (i 0).isLt⟩ : Fin 1) (⟨(i 1).val, (i 1).isLt⟩ : Fin 32) (⟨(i 2).val, (i 2).isLt⟩ : Fin 2048) d :=
  funext fun a => Fin.ext (by match a with | ⟨0, _⟩ => rfl | ⟨1, _⟩ => rfl | ⟨2, _⟩ => rfl | ⟨3, _⟩ => rfl)

/-- The uncorrected score at (b, h, n, t) reads the quantized keys at (b, h, t, d). -/
theorem ridx_v3 (i : S1x32x2048x2048.Idx) (d : Fin 128) :
    ridx_main_v3 i d
      = ix4 (⟨(i 0).val, (i 0).isLt⟩ : Fin 1) (⟨(i 1).val, (i 1).isLt⟩ : Fin 32) (⟨(i 3).val, (i 3).isLt⟩ : Fin 2048) d :=
  funext fun a => Fin.ext (by match a with | ⟨0, _⟩ => rfl | ⟨1, _⟩ => rfl | ⟨2, _⟩ => rfl | ⟨3, _⟩ => rfl)

/-- Column `r` of the projected query row (b, h, n) reads the queries at (b, h, n, d). -/
theorem lidx_v4_v7 (i : S1x32x2048x2048.Idx) (r : Fin 64) (d : Fin 128) :
    lidx_main_v4 (lidx_main_v7 i r) d
      = ix4 (⟨(i 0).val, (i 0).isLt⟩ : Fin 1) (⟨(i 1).val, (i 1).isLt⟩ : Fin 32) (⟨(i 2).val, (i 2).isLt⟩ : Fin 2048) d :=
  funext fun a => Fin.ext (by match a with | ⟨0, _⟩ => rfl | ⟨1, _⟩ => rfl | ⟨2, _⟩ => rfl | ⟨3, _⟩ => rfl)

/-- Column `r` of the projected query row reads the projection matrix at (d, r). -/
theorem ridx_v4_v7 (i : S1x32x2048x2048.Idx) (r : Fin 64) (d : Fin 128) :
    ridx_main_v4 (lidx_main_v7 i r) d = ix2 d r :=
  funext fun a => Fin.ext (by match a with | ⟨0, _⟩ => rfl | ⟨1, _⟩ => rfl)

/-- Column `r` of the projected residual of key row (b, h, t) reads the residual at (b, h, t, d). -/
theorem lidx_v1_v7 (i : S1x32x2048x2048.Idx) (r : Fin 64) (d : Fin 128) :
    lidx_main_v1 (ridx_main_v7 i r) d
      = ix4 (⟨(i 0).val, (i 0).isLt⟩ : Fin 1) (⟨(i 1).val, (i 1).isLt⟩ : Fin 32) (⟨(i 3).val, (i 3).isLt⟩ : Fin 2048) d :=
  funext fun a => Fin.ext (by match a with | ⟨0, _⟩ => rfl | ⟨1, _⟩ => rfl | ⟨2, _⟩ => rfl | ⟨3, _⟩ => rfl)

/-- Column `r` of the projected residual reads the projection matrix at (d, r). -/
theorem ridx_v1_v7 (i : S1x32x2048x2048.Idx) (r : Fin 64) (d : Fin 128) :
    ridx_main_v1 (ridx_main_v7 i r) d = ix2 d r :=
  funext fun a => Fin.ext (by match a with | ⟨0, _⟩ => rfl | ⟨1, _⟩ => rfl)

/-! ## The reference's result is the specification's -/

/-- The reference's last stage, as a function of the four arguments, is `scoreRef`. -/
theorem ref_eq (x0 x1 x2 : (⟨Cert.ReferenceIdeal.S1x32x2048x128, .f32⟩ : BufTy).Contents (Elt Ideal))
    (x3 : (⟨Cert.ReferenceIdeal.S128x64, .f32⟩ : BufTy).Contents (Elt Ideal)) :
    Cert.ReferenceIdeal.Read.val_main_v10 (F := Ideal) x0 x1 x2 x3 = Cert.Spec.scoreRef x0 x1 x2 x3 := by
  funext i
  rw [val_main_v10_apply, val_main_v3_apply, val_main_v9_apply, val_main_v7_apply, val_main_v8_apply,
    val_main_cst_0_apply]
  simp only [val_main_v6_apply, val_main_v4_apply, val_main_v5_apply, val_main_cst_apply, val_main_v2_apply,
    val_main_v1_apply, val_main_v0_apply, lidx_v3, ridx_v3, lidx_v4_v7, ridx_v4_v7, lidx_v1_v7, ridx_v1_v7,
    Ideal.addf_def, Ideal.mulf_def, Ideal.subf_def, Ideal.hostDivf_def, Ideal.hostUnary_sign_def, Ideal.ofBits_def]
  unfold Cert.Spec.scoreRef Cert.Spec.scoreRef4 Cert.Spec.raw Cert.Spec.proj Cert.Spec.sgn
  rfl

end Cert.RefValue

end
-- ==== Proof.Algebra.lean ====
/-
  The algebra that identifies the two arrangements of the corrected score.

  Both arrangements add, to the same uncorrected score, a contraction over the 64 projected columns of the
  projected query row against the signs of the projected key residual.  One scales every projected entry by
  1/64 before contracting,

      Σ_r (p_r · (1/64)) · s_r ,

  the other divides every projected entry by 8, contracts, and multiplies the sum by 1/8,

      (Σ_r (p_r / 8) · s_r) · (1/8) .

  Over the extended reals multiplication does not distribute over addition at the infinities, so the identity
  is NOT a ring identity of the extended reals.  It holds because every term is the image of a real number:

    * a sign is always one of the reals -1, 0, 1, whatever its argument (an infinity has sign ∓1);
    * a projected entry p_r = Σ_d q_d · g_{d r} is a finite sum of products of reals as soon as the queries
      and the projection matrix are finite;
    * the three scalars 1/64, 8 and 1/8 are exact dyadic rationals, and division by the nonzero real 8 is
      multiplication by the real 1/8.

  Once every term is written as the image of a real, the inclusion of the reals commutes with finite sums and
  with products, and the identity becomes, in the real numbers,

      (Σ_r p_r · (1/8) · s_r) · (1/8) = Σ_r p_r · (1/64) · s_r ,

  which is distributivity of a product over a finite sum and 1/8 · 1/8 = 1/64.  No hypothesis on the keys is
  needed: they enter only through signs.
-/
import proofs.«119321_j19490561589515_2_alg».proof.Proof.Spec

noncomputable section

namespace Cert.Algebra

open Idealize.ShloMosaic Idealize.ShloMosaic.ValueIdx

/-! ### The three scalars -/

/-- The word `0x3C800000` has exponent field 121 and a zero fraction: it denotes 2^(121-127) = 1/64. -/
theorem w64_eq : Ideal.ofBits .f32 0x3C800000#32 = ((1 / 64 : ℝ) : EReal) := by
  simp [Ideal.ofBits, Ideal.ieee, -EReal.coe_mul]; norm_num

/-- The word `0x41000000` has exponent field 130 and a zero fraction: it denotes 2^(130-127) = 8. -/
theorem w8_eq : Ideal.ofBits .f32 0x41000000#32 = ((8 : ℝ) : EReal) := by
  simp [Ideal.ofBits, Ideal.ieee, -EReal.coe_mul]; norm_num

/-- The word `0x3E000000` has exponent field 124 and a zero fraction: it denotes 2^(124-127) = 1/8. -/
theorem w18_eq : Ideal.ofBits .f32 0x3E000000#32 = ((1 / 8 : ℝ) : EReal) := by
  simp [Ideal.ofBits, Ideal.ieee, -EReal.coe_mul]; norm_num

/-! ### Reals inside the extended reals -/

/-- The inclusion of the reals in the extended reals commutes with finite sums. -/
theorem coe_sum {ι : Type} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A sign is a real number (-1, 0 or 1), at the infinities too. -/
theorem sign_real (x : EReal) : ∃ y : ℝ, Ideal.sign x = (y : EReal) := by
  induction x using EReal.rec with
  | bot => exact ⟨-1, by rw [Ideal.sign_bot, EReal.coe_neg, EReal.coe_one]⟩
  | coe r => exact ⟨(SignType.sign r : ℝ), Ideal.sign_coe r⟩
  | top => exact ⟨1, by rw [Ideal.sign_top, EReal.coe_one]⟩

/-- A projected entry of a finite query row against a finite projection matrix is a real number: a finite sum
    of products of reals. -/
theorem proj_real (q : Cert.Spec.SX.Idx → EReal) (g : Cert.Spec.SG.Idx → EReal)
    (hq : ∀ i, ∃ x : ℝ, q i = (x : EReal)) (hg : ∀ i, ∃ x : ℝ, g i = (x : EReal))
    (b : Fin 1) (h : Fin 32) (n : Fin 2048) (r : Fin 64) :
    ∃ p : ℝ, Cert.Spec.proj q g b h n r = (p : EReal) := by
  choose qr hqr using hq
  choose gr hgr using hg
  refine ⟨∑ d : Fin 128, qr (ix4 b h n d) * gr (ix2 d r), ?_⟩
  unfold Cert.Spec.proj
  rw [← coe_sum]
  refine Finset.sum_congr rfl (fun d _ => ?_)
  rw [hqr, hgr, EReal.coe_mul]

/-! ### The contraction law -/

/-- Dividing real entries by 8, contracting them against real weights and multiplying the sum by 1/8 is
    contracting the entries scaled by 1/64.  Every term is the image of a real; in the reals the identity is
    distributivity over the finite sum and 1/8 · 1/8 = 1/64. -/
theorem contract_law (P S : Fin 64 → EReal) (hP : ∀ r, ∃ p : ℝ, P r = (p : EReal))
    (hS : ∀ r, ∃ s : ℝ, S r = (s : EReal)) :
    (∑ r : Fin 64, Ideal.div (P r) (Ideal.ofBits .f32 0x41000000#32) * S r) * Ideal.ofBits .f32 0x3E000000#32
      = ∑ r : Fin 64, (P r * Ideal.ofBits .f32 0x3C800000#32) * S r := by
  choose p hp using hP
  choose s hs using hS
  rw [w8_eq, w18_eq, w64_eq]
  have h1 : ∀ r : Fin 64, Ideal.div (P r) ((8 : ℝ) : EReal) * S r = ((p r * (1 / 8) * s r : ℝ) : EReal) := by
    intro r
    rw [Ideal.div_coe (by norm_num) (P r), hp, hs, ← EReal.coe_mul, ← EReal.coe_mul]
  have h2 : ∀ r : Fin 64, (P r * ((1 / 64 : ℝ) : EReal)) * S r = ((p r * (1 / 64) * s r : ℝ) : EReal) := by
    intro r
    rw [hp, hs, ← EReal.coe_mul, ← EReal.coe_mul]
  rw [Finset.sum_congr rfl (fun r _ => h1 r), Finset.sum_congr rfl (fun r _ => h2 r), coe_sum, coe_sum,
    ← EReal.coe_mul]
  congr 1
  rw [Finset.sum_mul]
  exact Finset.sum_congr rfl (fun r _ => by ring)

/-! ### The two arrangements agree -/

/-- With finite queries and a finite projection matrix the reference's arrangement of the corrected score is the
    kernel's, at every entry and whatever the keys are. -/
theorem scoreRef_eq_score (q ko kq : Cert.Spec.SX.Idx → EReal) (g : Cert.Spec.SG.Idx → EReal)
    (hq : ∀ i, ∃ x : ℝ, q i = (x : EReal)) (hg : ∀ i, ∃ x : ℝ, g i = (x : EReal)) :
    Cert.Spec.scoreRef q ko kq g = Cert.Spec.score q ko kq g := by
  funext i
  unfold Cert.Spec.scoreRef Cert.Spec.score Cert.Spec.scoreRef4 Cert.Spec.score4
  exact congrArg (Cert.Spec.raw q kq _ _ _ _ + ·)
    (contract_law _ _ (fun r => proj_real q g hq hg _ _ _ r) (fun r => sign_real _))

end Cert.Algebra

end
-- ==== Proof.Finite.lean ====
/-
  From the precondition to real entries.

  The precondition is the conjunction, over the four argument arrays, of "every entry x satisfies |x| < +∞",
  each conjunct being the conjunction of that comparison over all the entries of one array, and it is stated
  as: the resulting truth value is 1.

  A conjunction of truth values is 1 exactly when each of them is 1, so the precondition gives, for every entry
  x of every argument array, that the comparison |x| < +∞ holds, where |x| = max x (-x) over the extended reals
  and +∞ is spelled as the float word 0x7F800000, which denotes the top element.  An extended real is -∞, a real,
  or +∞; at -∞ and at +∞ the absolute value is +∞, which is not below +∞, so an entry that passes the
  comparison is a real number.

  Only the queries (argument 0) and the projection matrix (argument 3) are read off here.
-/
import proofs.«119321_j19490561589515_2_alg».proof.Defs
import proofs.«119321_j19490561589515_2_alg».proof.Proof.Gen.Pre_finite_inputs
import Idealize.ShloMosaic.Lib.ReduceAll
import Idealize.ShloMosaic.Lib.ValueIdx

noncomputable section

namespace Cert.Finite

open Idealize.ShloMosaic Idealize.SL.Sem

/-- The shape with no axes has exactly one index. -/
instance : Subsingleton Cert.Pre_finite_inputs.S_.Idx := ⟨fun a b => funext fun d => d.elim0⟩

/-- An extended real whose absolute value max x (-x) is strictly below +∞ (the word 0x7F800000) is a real number:
    at both infinities the absolute value is +∞ itself. -/
theorem real_of_abs_lt (x : EReal)
    (h : Ideal.cmp .olt (max x (-x)) (Ideal.ofBits .f32 0x7F800000#32) = 1#1) : ∃ y : ℝ, x = (y : EReal) := by
  have hinf : Ideal.ofBits .f32 0x7F800000#32 = ⊤ := by simp [Ideal.ofBits, Ideal.ieee]
  rw [hinf] at h
  induction x using EReal.rec with
  | bot => simp [Ideal.cmp] at h
  | coe r => exact ⟨r, rfl⟩
  | top => simp [Ideal.cmp] at h

/-- Under the precondition every entry of the queries (argument 0) and of the projection matrix (argument 3) is a
    real number, on every device.  The precondition is a conjunction of four conjunctions-over-all-entries of the
    comparison |x| < +∞; the first and the last of the four are the two arrays wanted. -/
theorem real_of_pre [hP : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, ∃ x : ℝ, m ((c.tc : Thread Cert.KernelIdeal.nD Cert.KernelIdeal.τ).loc Cert.KernelIdeal.main_arg0) i = (x : EReal))
    ∧ (∀ i, ∃ x : ℝ, m ((c.tc : Thread Cert.KernelIdeal.nD Cert.KernelIdeal.τ).loc Cert.KernelIdeal.main_arg3) i = (x : EReal)) := by
  -- the truth value of the whole conjunction, at its one index
  have e := congrFun (hpre c) ValueIdx.ix0
  dsimp only [Cert.Pre_finite_inputs.fn, Cert.Pre_finite_inputs.fn_part1] at e
  -- a conjunction is 1 exactly when both sides are: ((a₀ ∧ a₁) ∧ a₂) ∧ a₃
  simp only [andi] at e
  rw [IntOp.andi_eq_one, IntOp.andi_eq_one, IntOp.andi_eq_one] at e
  obtain ⟨⟨⟨h0, -⟩, -⟩, h3⟩ := e
  -- a conjunction over all entries that is 1 is 1 at each entry; there the comparison makes the entry real
  exact ⟨fun i => real_of_abs_lt _ (Host.reduce_andi_all _ _ _ _ _ h0 i),
    fun i => real_of_abs_lt _ (Host.reduce_andi_all _ _ _ _ _ h3 i)⟩

end Cert.Finite

end
-- ==== Proof.Preserves.lean ====
/-
  The idealized kernel is the kernel's sanctioned idealization: the one place where the two printed programs differ.

  At the word level the kernel forms "1.0 carrying the sign bit of x" for every element x of a [1024, 64] array of
  32-bit floats: it masks x's word with the sign bit's pattern 0x80000000 and or-s the result into 1.0's pattern
  0x3F800000.  The idealized program spells the same value by a comparison: -1 where x < 0 and 1 elsewhere.

  The claim about this site has two halves, one per reading of a float.
    * Over the extended reals, the selection "x < 0 ? -1 : 1", with the three constants written as the words of 0, -1.0
      and 1.0, is the function that is -1 below zero and 1 at and above it: the three words denote 0, -1 and 1.
    * Over 32-bit words, the mask-and-or is -1.0's pattern where x's top bit is set and 1.0's pattern where it is clear,
      for every word x: a word under the sign bit's mask is that mask or zero according to its top bit, and 1.0's
      pattern with the mask or-ed in is -1.0's pattern.
  Both halves are the library's general facts about this rewrite, taken at the shape [1024, 64] and the 32-bit format.
-/
import proofs.«119321_j19490561589515_2_alg».proof.Defs

noncomputable section

namespace Cert.Preserves

open Idealize.ShloMosaic

/-- The sign-bit site: ±1 by `x < 0` over the extended reals, ±1.0's pattern by the top bit over words. -/
theorem preserves : Cert.preserves_Kernel_KernelIdeal :=
  IdealRules.sign_bit.statement Cert.KernelIdeal.S1024x64 .f32

end Cert.Preserves

end
-- ==== Proof.lean ====
/-
  The certificate of a fused score kernel against its reference, over the extended reals.

  Both programs take queries `q`, original keys `ko`, quantized keys `kq` (each [1, 32, 2048, 128]) and a projection
  matrix `g` [128, 64], and return scores [1, 32, 2048, 2048]. For batch-head (b, h), query row n, key row t:

      raw    = Σ_d q[b,h,n,d] · kq[b,h,t,d]
      proj r = Σ_d q[b,h,n,d] · g[d,r]
      sgn r  = sign (Σ_d (ko[b,h,t,d] − kq[b,h,t,d]) · g[d,r])

  The kernel returns  raw + Σ_r (proj r · (1/64)) · sgn r ;  the reference returns  raw + (Σ_r (proj r / 8) · sgn r) · (1/8).

  * The kernel side (Pieces, Payload, Blocks, Points, Cover, Final): the kernel walks a 32 × 2 × 2 grid; at each point it
    stores one 1024 × 1024 block of scores, computed with a block of signs that it fills when the query tile is the
    first one and otherwise carries over from the previous point, which has the same keys. Every stored block is the
    kernel's formula restricted to the block, the blocks tile the array, and the result is that array with a leading
    unit axis.
  * The reference side (RefValue): its thirteen host operations, read one at a time at an index, compose to the
    reference's formula.
  * The two formulas agree (Algebra, Finite): the signs are always real numbers, and when the queries and the matrix are
    finite so is every projection; then both corrections are the coercion of the same real sum, since
    (p / 8) · s · (1/8) = (p · (1/64)) · s in ℝ. Finiteness is what lets the factor 1/8 move inside the sum: on the
    extended reals multiplication does not distribute over a sum that meets both infinities.
  * The idealized kernel replaces a bit-pattern construction of "1.0 with x's sign bit" by a comparison with zero; that
    this is the sanctioned rewrite is the one entry of `preserves` (Preserves).
  * The three frames are the generated frame runs (for the reference, its generated run with the result dropped).
-/
import proofs.«119321_j19490561589515_2_alg».proof.Defs
import proofs.«119321_j19490561589515_2_alg».proof.Proof.Gen.Kernel
import proofs.«119321_j19490561589515_2_alg».proof.Proof.Gen.Kernel.Skeleton
import proofs.«119321_j19490561589515_2_alg».proof.Proof.Gen.Kernel.Launch
import proofs.«119321_j19490561589515_2_alg».proof.Proof.Gen.Kernel.Points
import proofs.«119321_j19490561589515_2_alg».proof.Proof.Gen.Kernel.Frame
import proofs.«119321_j19490561589515_2_alg».proof.Proof.Gen.KernelIdeal
import proofs.«119321_j19490561589515_2_alg».proof.Proof.Gen.KernelIdeal.Skeleton
import proofs.«119321_j19490561589515_2_alg».proof.Proof.Gen.KernelIdeal.Launch
import proofs.«119321_j19490561589515_2_alg».proof.Proof.Gen.KernelIdeal.Points
import proofs.«119321_j19490561589515_2_alg».proof.Proof.Gen.KernelIdeal.Frame
import proofs.«119321_j19490561589515_2_alg».proof.Proof.Gen.ReferenceIdeal
import proofs.«119321_j19490561589515_2_alg».proof.Proof.Gen.ReferenceIdeal.Run
import proofs.«119321_j19490561589515_2_alg».proof.Proof.Gen.ReferenceIdeal.Read
import proofs.«119321_j19490561589515_2_alg».proof.Proof.Gen.Pre_finite_inputs
import proofs.«119321_j19490561589515_2_alg».proof.Proof.Final
import proofs.«119321_j19490561589515_2_alg».proof.Proof.RefValue
import proofs.«119321_j19490561589515_2_alg».proof.Proof.Algebra
import proofs.«119321_j19490561589515_2_alg».proof.Proof.Finite
import proofs.«119321_j19490561589515_2_alg».proof.Proof.Preserves
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the reference: its run, with the statement about the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on finite arguments the idealized kernel ends at the kernel's formula and the reference at
    the reference's formula of the same arrays, and under finiteness of the queries and the matrix the two formulas are
    equal entry by entry. -/
theorem algebraic : Cert.algebraic_KernelIdeal_ReferenceIdeal := by
  intro m ρ m' ρ' hpre hagree
  refine ⟨fun c => Cert.Spec.score (Cert.KernelIdeal.KV.argQ m c) (Cert.KernelIdeal.KV.argKO m c) (Cert.KernelIdeal.KV.argKQ m c)
    (Cert.KernelIdeal.KV.argG m c), Cert.KernelIdeal.KV.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.RefValue.ref_eq, (hagree c).1, (hagree c).2.1, (hagree c).2.2.1,
    (hagree c).2.2.2]
  exact Cert.Algebra.scoreRef_eq_score _ _ _ _ (Cert.Finite.real_of_pre m hpre c).1 (Cert.Finite.real_of_pre m hpre c).2

theorem claim : Cert.Claim := ⟨Cert.Kernel.Gen.facts, Cert.KernelIdeal.Gen.facts, Cert.ReferenceIdeal.Gen.facts, Cert.Pre_finite_inputs.Gen.facts,
  frame_kernel, frame_kernelIdeal, frame_reference, Cert.Preserves.preserves, algebraic⟩

end Cert.Proof

end
